-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256x64 .f32) (main_arg6 : FVec F S64 .f32) (main_arg7 : FVec F S256x64 .f32) (main_arg8 : FVec F S64x128 .f32) (main_arg9 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x64 .f32) (main_arg6 : FVec F S64 .f32) (main_arg7 : FVec F S256x64 .f32) (main_arg8 : FVec F S64x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S50000x64 : Shape := ⟨2, ![50000, 64]⟩
abbrev S2000x128 : Shape := ⟨2, ![2000, 128]⟩
abbrev S2000x1 : Shape := ⟨2, ![2000, 1]⟩
abbrev S2000x256 : Shape := ⟨2, ![2000, 256]⟩
abbrev S2000x64 : Shape := ⟨2, ![2000, 64]⟩
abbrev S800000x64 : Shape := ⟨2, ![800000, 64]⟩
abbrev S1x64 : Shape := ⟨2, ![1, 64]⟩
abbrev S1x128 : Shape := ⟨2, ![1, 128]⟩

abbrev nBuf : Space → Nat
  | .hbm => 69
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S128x256, .bf16⟩
  | .hbm, ⟨43, _⟩ => ⟨S128x256, .bf16⟩
  | .hbm, ⟨44, _⟩ => ⟨S256x64, .bf16⟩
  | .hbm, ⟨45, _⟩ => ⟨S256x64, .bf16⟩
  | .hbm, ⟨46, _⟩ => ⟨S64x128, .bf16⟩
  | .hbm, ⟨47, _⟩ => ⟨S1x256, .f32⟩
  | .hbm, ⟨48, _⟩ => ⟨S50000x256, .f32⟩
  | .hbm, ⟨49, _⟩ => ⟨S50000x64, .f32⟩
  | .hbm, ⟨50, _⟩ => ⟨S50000x64, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .bf16⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S1x64, .f32⟩
  | .hbm, ⟨66, _⟩ => ⟨S1x128, .f32⟩
  | .hbm, ⟨67, _⟩ => ⟨S50000x64, .f32⟩
  | .hbm, ⟨68, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S256x64, .bf16⟩
  | .local _ .vmem, ⟨10, _⟩ => ⟨S2000x256, .f32⟩
  | .local _ .vmem, ⟨11, _⟩ => ⟨S2000x256, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x256, .f32⟩
  | .local _ .vmem, ⟨17, _⟩ => ⟨S2000x256, .f32⟩
  | .local _ .vmem, ⟨18, _⟩ => ⟨S2000x1, .f32⟩
  | .local _ .vmem, ⟨19, _⟩ => ⟨S2000x1, .f32⟩
  | .local _ .vmem, ⟨20, _⟩ => ⟨S256x64, .bf16⟩
  | .local _ .vmem, ⟨21, _⟩ => ⟨S1x64, .f32⟩
  | .local _ .vmem, ⟨22, _⟩ => ⟨S64x128, .bf16⟩
  | .local _ .vmem, ⟨23, _⟩ => ⟨S1x128, .f32⟩
  | .local _ .vmem, ⟨24, _⟩ => ⟨S2000x64, .f32⟩
  | .local _ .vmem, ⟨25, _⟩ => ⟨S2000x64, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S128_S1x128 : S128.ShapeCasts S1x128
  shapeCasts_S2000x64_S2000x64 : S2000x64.ShapeCasts S2000x64
  broadcasts_S2000x1_S2000x64 : S2000x1.Broadcasts S2000x64
  shapeCasts_S2000x256_S2000x256 : S2000x256.ShapeCasts S2000x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .bf16 = 32 ∨ (Rect.block (s := S64x128) S64x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v31_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46_0) S2000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v46_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  dot_S50000x64_S64x128_S50000x128_1_0_0_1_n_n_wf : DotDims.WF S50000x64 S64x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KRun.lean ====
/-
  The idealized kernel's run with its two results named. The program is two grid regions among stretches of
  whole-array operations; every weakly fair execution terminates without a fault, and in the final state each
  result array holds what the last boundary of the run holds there (the contents named W4 by the generated frame),
  while the ten argument arrays are as launched.
-/
import proofs.«165848_j85315230367791_2_alg».proof.Proof.Gen.KernelIdeal.Frame

set_option maxRecDepth 16384

noncomputable section

namespace Cert.GraphAE.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the two results end at the last boundary's contents,
    the arguments as launched. -/
theorem run_outputs : θ_run defs (onTc (τ := τ) (main (F := F))) ⟨m, fun _ => 0, ρ⟩ (fun r => ∀ c : Dev nD,
      r.2.mem ((c.tc : Thread nD τ).loc main_v46_0) = W4 m ρ c (Proc.devRef .tc main_v46_0)
      ∧ r.2.mem ((c.tc : Thread nD τ).loc main_v46_1) = W4 m ρ c (Proc.devRef .tc main_v46_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46_0 (by decide)),
       h c _ (mem_uc main_v46_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.GraphAE.Ker

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.Spec.lean ====
/-
  An autoencoder on a graph with 50000 nodes and 800000 directed edges: two layers that average a node's
  in-neighbours (the sum over arriving edges of the source node's row, divided by the in-degree clamped below
  at one), apply a linear map to that average and another to the node's own row, add a bias; a rectifier after
  the first layer; a linear decoder at the end. Written here as functions of the entries, on the extended reals,
  in the two arrangements that are compared: the first divides the aggregated rows by the degree and then
  multiplies by the weight matrix; the second multiplies by the reciprocal of the degree, adds the first
  layer's bias last, and for the second layer aggregates the rows ALREADY multiplied by the weight matrix.

  The edges are given by two arrays of 32-bit words, one word per edge: the source word is read signed and
  clamped into the node range (what a row gather does with it); an edge arrives at node i when its destination
  word, read signed, is i (what an accumulating scatter does: other edges are dropped).
-/
import Idealize.ShloMosaic.PureOps.Ideal
import Idealize.ShloMosaic.Lib.ValueIdx
import proofs.«165848_j85315230367791_2_alg».proof.Proof.LibRows

noncomputable section

namespace Cert.GraphAE

open Idealize.ShloMosaic Idealize.ShloMosaic.ValueIdx

/-- A matrix given on index pairs, read by its two coordinates. -/
def cur2 {A B : ℕ} {α : Type} (X : (⟨2, ![A, B]⟩ : Shape).Idx → α) : Fin A → Fin B → α := fun a b => X (ix2 a b)
/-- A vector given on indices, read by its coordinate. -/
def cur1 {A : ℕ} {α : Type} (X : (⟨1, ![A]⟩ : Shape).Idx → α) : Fin A → α := fun a => X (ix1 a)

variable (src dst : IVec ⟨2, ![800000, 1]⟩ 32)

/-- The node an edge reads from: its source word read signed and clamped into the node range. -/
def srcRow (e : Fin 800000) : Fin 50000 :=
  ⟨Cert.LibRows.clampRow 50000 (src (ix2 e 0)), Cert.LibRows.clampRow_lt (by norm_num) _⟩

/-- The sum, over the edges arriving at node i, of the source node's entry in column c. -/
def agg {C : ℕ} (X : Fin 50000 → Fin C → EReal) (i : Fin 50000) (c : Fin C) : EReal :=
  0 + ∑ e : Fin 800000, if (dst (ix2 e 0)).toInt = (i.val : Int) then X (srcRow src e) c else 0

/-- The number of edges arriving at node i. -/
def cnt (i : Fin 50000) : EReal :=
  0 + ∑ e : Fin 800000, if (dst (ix2 e 0)).toInt = (i.val : Int) then (1 : EReal) else 0

/-- The in-degree clamped below at one. -/
def deg (i : Fin 50000) : EReal := max (cnt dst i) 1

/-! ## Dividing first -/

/-- First layer: rectifier of (mean of neighbours)·W1l + b1 + x·W1r. -/
def hidRef (x : Fin 50000 → Fin 128 → EReal) (W1l : Fin 128 → Fin 256 → EReal) (b1 : Fin 256 → EReal)
    (W1r : Fin 128 → Fin 256 → EReal) (i : Fin 50000) (j : Fin 256) : EReal :=
  max (((∑ k : Fin 128, Ideal.div (agg src dst x i k) (deg dst i) * W1l k j) + b1 j) + ∑ k : Fin 128, x i k * W1r k j) 0

/-- Second layer: (mean of neighbours' hidden rows)·W2l + b2 + h·W2r. -/
def latRef (h : Fin 50000 → Fin 256 → EReal) (W2l : Fin 256 → Fin 64 → EReal) (b2 : Fin 64 → EReal)
    (W2r : Fin 256 → Fin 64 → EReal) (i : Fin 50000) (j : Fin 64) : EReal :=
  ((∑ k : Fin 256, Ideal.div (agg src dst h i k) (deg dst i) * W2l k j) + b2 j) + ∑ k : Fin 256, h i k * W2r k j

/-- The decoder: z·Wd + bd. -/
def dec (z : Fin 50000 → Fin 64 → EReal) (Wd : Fin 64 → Fin 128 → EReal) (bd : Fin 128 → EReal)
    (i : Fin 50000) (j : Fin 128) : EReal :=
  (∑ k : Fin 64, z i k * Wd k j) + bd j

/-! ## Multiplying by the reciprocal, projecting before aggregating -/

/-- First layer with the reciprocal of the degree and the bias added last. -/
def hidKer (x : Fin 50000 → Fin 128 → EReal) (W1l : Fin 128 → Fin 256 → EReal) (b1 : Fin 256 → EReal)
    (W1r : Fin 128 → Fin 256 → EReal) (i : Fin 50000) (j : Fin 256) : EReal :=
  max (((∑ k : Fin 128, (agg src dst x i k * Ideal.div 1 (deg dst i)) * W1l k j) + ∑ k : Fin 128, x i k * W1r k j) + b1 j) 0

/-- The hidden rows multiplied by W2l, node by node. -/
def projKer (h : Fin 50000 → Fin 256 → EReal) (W2l : Fin 256 → Fin 64 → EReal) (i : Fin 50000) (j : Fin 64) : EReal :=
  ∑ k : Fin 256, h i k * W2l k j

/-- Second layer over the aggregated projected rows. -/
def latKer (h : Fin 50000 → Fin 256 → EReal) (p : Fin 50000 → Fin 64 → EReal) (b2 : Fin 64 → EReal)
    (W2r : Fin 256 → Fin 64 → EReal) (i : Fin 50000) (j : Fin 64) : EReal :=
  ((agg src dst p i j * Ideal.div 1 (deg dst i)) + b2 j) + ∑ k : Fin 256, h i k * W2r k j

end Cert.GraphAE

end
-- ==== Proof.Rows.lean ====
/-
  The four dense steps of the network, each written for an array with ANY number of rows: the value in row r
  depends on row r of the row-indexed operands only, so a block of consecutive rows computed by itself is that
  block of the whole array's result. The second arrangement of the network (the reciprocal of the degree, the bias
  last, the projected rows aggregated) is these steps applied to the aggregated rows.
-/
import proofs.«165848_j85315230367791_2_alg».proof.Proof.Spec

noncomputable section

namespace Cert.GraphAE

open Idealize.ShloMosaic Idealize.ShloMosaic.ValueIdx

variable {n : ℕ}

/-- Rectifier of (S scaled row by row by inv)·W1l + x·W1r + b1. -/
def hidRows (S x : Fin n → Fin 128 → EReal) (inv : Fin n → EReal) (W1l W1r : Fin 128 → Fin 256 → EReal)
    (b1 : Fin 256 → EReal) (r : Fin n) (j : Fin 256) : EReal :=
  max (((∑ k : Fin 128, (S r k * inv r) * W1l k j) + ∑ k : Fin 128, x r k * W1r k j) + b1 j) 0

/-- h·W2l. -/
def projRows (h : Fin n → Fin 256 → EReal) (W2l : Fin 256 → Fin 64 → EReal) (r : Fin n) (j : Fin 64) : EReal :=
  ∑ k : Fin 256, h r k * W2l k j

/-- (S2 scaled row by row by inv) + b2 + h·W2r. -/
def latRows (S2 : Fin n → Fin 64 → EReal) (h : Fin n → Fin 256 → EReal) (inv : Fin n → EReal) (b2 : Fin 64 → EReal)
    (W2r : Fin 256 → Fin 64 → EReal) (r : Fin n) (j : Fin 64) : EReal :=
  ((S2 r j * inv r) + b2 j) + ∑ k : Fin 256, h r k * W2r k j

/-- z·Wd + bd. -/
def decRows (z : Fin n → Fin 64 → EReal) (Wd : Fin 64 → Fin 128 → EReal) (bd : Fin 128 → EReal) (r : Fin n) (j : Fin 128) : EReal :=
  (∑ k : Fin 64, z r k * Wd k j) + bd j

variable (src dst : IVec ⟨2, ![800000, 1]⟩ 32)

/-- The reciprocal of the clamped in-degree, node by node. -/
def invDeg (i : Fin 50000) : EReal := Ideal.div 1 (deg dst i)

theorem hidKer_eq_rows (x : Fin 50000 → Fin 128 → EReal) (W1l : Fin 128 → Fin 256 → EReal) (b1 : Fin 256 → EReal)
    (W1r : Fin 128 → Fin 256 → EReal) :
    hidKer src dst x W1l b1 W1r = hidRows (agg src dst x) x (invDeg dst) W1l W1r b1 := rfl

theorem projKer_eq_rows (h : Fin 50000 → Fin 256 → EReal) (W2l : Fin 256 → Fin 64 → EReal) : projKer h W2l = projRows h W2l := rfl

theorem latKer_eq_rows (h : Fin 50000 → Fin 256 → EReal) (p : Fin 50000 → Fin 64 → EReal) (b2 : Fin 64 → EReal)
    (W2r : Fin 256 → Fin 64 → EReal) :
    latKer src dst h p b2 W2r = latRows (agg src dst p) h (invDeg dst) b2 W2r := rfl

theorem dec_eq_rows (z : Fin 50000 → Fin 64 → EReal) (Wd : Fin 64 → Fin 128 → EReal) (bd : Fin 128 → EReal) :
    dec z Wd bd = decRows z Wd bd := rfl

end Cert.GraphAE

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KBody.lean ====
/-
  What one grid point of each region computes, entry by entry, over the extended reals. A block of 2000 node
  rows goes in; the first region's two stores are the hidden rows (rectifier of scaled aggregate times W1l plus
  own row times W1r plus bias) and those rows times W2l; the second region's are the latent rows and the decoded
  rows. Changes of float format are the identity; a matrix product into a zero accumulator is the sum of products.
-/
import proofs.«165848_j85315230367791_2_alg».proof.Proof.Gen.KernelIdeal.Skeleton
import proofs.«165848_j85315230367791_2_alg».proof.Proof.Rows
import proofs.«165848_j85315230367791_2_alg».proof.Proof.LibProduct
import proofs.«165848_j85315230367791_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.GraphAE.Ker

open Cert.KernelIdeal Cert.KernelIdeal.Gen Cert.GraphAE
open Idealize.ShloMosaic Idealize.ShloMosaic.ValueIdx

/-- The first region's first store at (r, j): the hidden row. -/
theorem hid_block (v0 : FVec Ideal S2000x1 .f32) (v2 v7 : FVec Ideal S2000x128 .f32) (v9 v12 : FVec Ideal S128x256 .bf16)
    (v16 : FVec Ideal S1x256 .f32) (r : Fin 2000) (j : Fin 256) :
    k0_pay1 (F := Ideal) v0 v2 v7 v9 v12 v16 (ix2 r j)
      = hidRows (cur2 v2) (cur2 v7) (fun r => v0 (ix2 r 0)) (cur2 v9) (cur2 v12) (fun j => v16 (ix2 0 j)) r j := by
  unfold k0_pay1 hidRows cur2
  simp only [shapeCast_self, maximumf_apply, addf_apply, mulf_apply, truncf_apply, broadcast_apply,
    Cert.LibProduct.matmul_zero_apply dot_S2000x128_S128x256_S2000x256_1_0_0_1_n_n rfl rfl rfl rfl rfl rfl,
    Cert.LibColumn.broadcastTo_a1_ab_apply, broadcastTo_1b_ab_apply, Ideal.ofBits_def, Ideal.ofBits_zero_f32]

/-- The first region's second store at (r, j): the hidden row times W2l. -/
theorem proj_block (v0 : FVec Ideal S2000x1 .f32) (v2 v7 : FVec Ideal S2000x128 .f32) (v9 v12 : FVec Ideal S128x256 .bf16)
    (v16 : FVec Ideal S1x256 .f32) (v24 : FVec Ideal S256x64 .bf16) (r : Fin 2000) (j : Fin 64) :
    k0_pay2 (F := Ideal) v0 v2 v7 v9 v12 v16 v24 (ix2 r j)
      = projRows (hidRows (cur2 v2) (cur2 v7) (fun r => v0 (ix2 r 0)) (cur2 v9) (cur2 v12) (fun j => v16 (ix2 0 j))) (cur2 v24) r j := by
  unfold k0_pay2 projRows
  simp only [shapeCast_self, truncf_apply,
    Cert.LibProduct.matmul_zero_apply dot_S2000x256_S256x64_S2000x64_1_0_0_1_n_n rfl rfl rfl rfl rfl rfl, hid_block]
  rfl

/-- The second region's first store at (r, j): the latent row. -/
theorem lat_block (v0 : FVec Ideal S2000x1 .f32) (v2 : FVec Ideal S2000x64 .f32) (v6 : FVec Ideal S2000x256 .f32)
    (v9 : FVec Ideal S1x64 .f32) (v13 : FVec Ideal S256x64 .bf16) (r : Fin 2000) (j : Fin 64) :
    k1_pay1 (F := Ideal) v0 v2 v6 v9 v13 (ix2 r j)
      = latRows (cur2 v2) (cur2 v6) (fun r => v0 (ix2 r 0)) (fun j => v9 (ix2 0 j)) (cur2 v13) r j := by
  unfold k1_pay1 latRows cur2
  simp only [shapeCast_self, addf_apply, mulf_apply, truncf_apply,
    Cert.LibProduct.matmul_zero_apply dot_S2000x256_S256x64_S2000x64_1_0_0_1_n_n rfl rfl rfl rfl rfl rfl,
    Cert.LibColumn.broadcastTo_a1_ab_apply, broadcastTo_1b_ab_apply]

/-- The second region's second store at (r, j): the decoded row. -/
theorem dec_block (v0 : FVec Ideal S2000x1 .f32) (v2 : FVec Ideal S2000x64 .f32) (v6 : FVec Ideal S2000x256 .f32)
    (v9 : FVec Ideal S1x64 .f32) (v13 : FVec Ideal S256x64 .bf16) (v19 : FVec Ideal S64x128 .bf16) (v22 : FVec Ideal S1x128 .f32)
    (r : Fin 2000) (j : Fin 128) :
    k1_pay2 (F := Ideal) v0 v2 v6 v9 v13 v19 v22 (ix2 r j)
      = decRows (latRows (cur2 v2) (cur2 v6) (fun r => v0 (ix2 r 0)) (fun j => v9 (ix2 0 j)) (cur2 v13)) (cur2 v19)
          (fun j => v22 (ix2 0 j)) r j := by
  unfold k1_pay2 decRows
  simp only [shapeCast_self, addf_apply, truncf_apply,
    Cert.LibProduct.matmul_zero_apply dot_S2000x64_S64x128_S2000x128_1_0_0_1_n_n rfl rfl rfl rfl rfl rfl,
    broadcastTo_1b_ab_apply, lat_block]
  rfl

end Cert.GraphAE.Ker

end
-- ==== Proof.KBlocks0.lean ====
/-
  The first region, from blocks to whole arrays. The grid has 25 points; point t works on node rows
  2000·t … 2000·t + 1999: it reads those rows of the aggregated features, of the features and of the reciprocal
  degrees, the three weight matrices and the bias whole, and writes those rows of the hidden array and of the
  projected array. The row blocks tile the 50000 rows, and the value of a row depends on that row only, so after
  the 25 write-backs each result array is ONE function of the arrays the region found, entry by entry.
  Stated for any contents V of the buffers at the region's entry.
-/
import proofs.«165848_j85315230367791_2_alg».proof.Proof.Gen.KernelIdeal.Frame
import proofs.«165848_j85315230367791_2_alg».proof.Proof.KBody
import Idealize.ShloMosaic.Lib.Pipeline.Value

set_option maxRecDepth 16384

noncomputable section

namespace Cert.GraphAE.Ker

open Cert.KernelIdeal Cert.KernelIdeal.Gen Cert.GraphAE
open Idealize.ShloMosaic Idealize.ShloMosaic.TcCoe Idealize.ShloMosaic.ValueIdx Idealize.SL.Sem
open Idealize.ShloMosaic.Pipeline (Dat Cfg Window)

/-- Row r of the block of point T is row 2000·T + r of the array. -/
def rowAt (T : ℕ) (hT : T < 25) (r : Fin 2000) : Fin 50000 := ⟨T * 2000 + r.val, by have := r.isLt; omega⟩

theorem hz : (![0, 0] : Fin 2 → Nat) = fun _ => 0 := funext fun a => by fin_cases a <;> rfl

/-- The hidden array as a function of the arrays the first region finds. -/
def Hof (S x : S50000x128.Idx → EReal) (inv : S50000x1.Idx → EReal) (Wl Wr : S128x256.Idx → EReal) (b : S1x256.Idx → EReal) :
    S50000x256.Idx → EReal :=
  fun i => hidRows (n := 50000) (cur2 S) (cur2 x) (fun r => inv (ix2 r 0)) (cur2 Wl) (cur2 Wr) (fun j => b (ix2 0 j)) (i 0) (i 1)

/-- The projected array as a function of the arrays the first region finds. -/
def Pof (S x : S50000x128.Idx → EReal) (inv : S50000x1.Idx → EReal) (Wl Wr : S128x256.Idx → EReal) (b : S1x256.Idx → EReal)
    (W2 : S256x64.Idx → EReal) : S50000x64.Idx → EReal :=
  fun i => projRows (n := 50000) (hidRows (n := 50000) (cur2 S) (cur2 x) (fun r => inv (ix2 r 0)) (cur2 Wl) (cur2 Wr) (fun j => b (ix2 0 j)))
    (cur2 W2) (i 0) (i 1)

/-! ## One grid point -/

/-- The hidden rows of a block whose row-indexed operands are rows 2000·T … of the arrays. -/
theorem hid_point (S x : S50000x128.Idx → EReal) (inv : S50000x1.Idx → EReal) (Wl Wr : S128x256.Idx → EReal) (b : S1x256.Idx → EReal)
    (x0 x1 : FVec Ideal S2000x128 .f32) (x2 : FVec Ideal S2000x1 .f32) (x3 x4 : FVec Ideal S128x256 .bf16) (x5 : FVec Ideal S1x256 .f32)
    (T : ℕ) (hT : T < 25)
    (h0 : ∀ (r : Fin 2000) (k : Fin 128), x0 (ix2 r k) = S (ix2 (rowAt T hT r) k))
    (h1 : ∀ (r : Fin 2000) (k : Fin 128), x1 (ix2 r k) = x (ix2 (rowAt T hT r) k))
    (h2 : ∀ (r : Fin 2000), x2 (ix2 r 0) = inv (ix2 (rowAt T hT r) 0))
    (h3 : ∀ (k : Fin 128) (j : Fin 256), x3 (ix2 k j) = Wl (ix2 k j))
    (h4 : ∀ (k : Fin 128) (j : Fin 256), x4 (ix2 k j) = Wr (ix2 k j))
    (h5 : ∀ (j : Fin 256), x5 (ix2 0 j) = b (ix2 0 j))
    (r : Fin 2000) (j : Fin 256) (i : S50000x256.Idx) (hi0 : (i 0).val = T * 2000 + r.val) (hi1 : (i 1).val = j.val) :
    k0_pay1 (F := Ideal) x2 x0 x1 x3 x4 x5 (ix2 r j) = Hof S x inv Wl Wr b i := by
  have hi : i = ix2 (rowAt T hT r) j := funext fun a => Fin.ext (by
    match a with
    | ⟨0, _⟩ => exact hi0
    | ⟨1, _⟩ => exact hi1)
  subst hi
  refine (hid_block x2 x0 x1 x3 x4 x5 r j).trans ?_
  show hidRows _ _ _ _ _ _ r j = hidRows _ _ _ _ _ _ (rowAt T hT r) j
  unfold hidRows cur2
  simp only [h0, h1, h2, h3, h4, h5]

/-- The projected rows of such a block. -/
theorem proj_point (S x : S50000x128.Idx → EReal) (inv : S50000x1.Idx → EReal) (Wl Wr : S128x256.Idx → EReal) (b : S1x256.Idx → EReal)
    (W2 : S256x64.Idx → EReal)
    (x0 x1 : FVec Ideal S2000x128 .f32) (x2 : FVec Ideal S2000x1 .f32) (x3 x4 : FVec Ideal S128x256 .bf16) (x5 : FVec Ideal S1x256 .f32)
    (x6 : FVec Ideal S256x64 .bf16)
    (T : ℕ) (hT : T < 25)
    (h0 : ∀ (r : Fin 2000) (k : Fin 128), x0 (ix2 r k) = S (ix2 (rowAt T hT r) k))
    (h1 : ∀ (r : Fin 2000) (k : Fin 128), x1 (ix2 r k) = x (ix2 (rowAt T hT r) k))
    (h2 : ∀ (r : Fin 2000), x2 (ix2 r 0) = inv (ix2 (rowAt T hT r) 0))
    (h3 : ∀ (k : Fin 128) (j : Fin 256), x3 (ix2 k j) = Wl (ix2 k j))
    (h4 : ∀ (k : Fin 128) (j : Fin 256), x4 (ix2 k j) = Wr (ix2 k j))
    (h5 : ∀ (j : Fin 256), x5 (ix2 0 j) = b (ix2 0 j))
    (h6 : ∀ (k : Fin 256) (j : Fin 64), x6 (ix2 k j) = W2 (ix2 k j))
    (r : Fin 2000) (j : Fin 64) (i : S50000x64.Idx) (hi0 : (i 0).val = T * 2000 + r.val) (hi1 : (i 1).val = j.val) :
    k0_pay2 (F := Ideal) x2 x0 x1 x3 x4 x5 x6 (ix2 r j) = Pof S x inv Wl Wr b W2 i := by
  have hi : i = ix2 (rowAt T hT r) j := funext fun a => Fin.ext (by
    match a with
    | ⟨0, _⟩ => exact hi0
    | ⟨1, _⟩ => exact hi1)
  subst hi
  refine (proj_block x2 x0 x1 x3 x4 x5 x6 r j).trans ?_
  show projRows (hidRows _ _ _ _ _ _) _ r j = projRows (hidRows _ _ _ _ _ _) _ (rowAt T hT r) j
  unfold projRows hidRows cur2
  simp only [h0, h1, h2, h3, h4, h5, h6]

/-! ## The index maps, decided over the grid -/

theorem tlt (t : Fin cfg0.N) : t.val < 25 := lt_of_lt_of_eq t.isLt N_0

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b))

/-! ## Each input block read where it sits in its array -/

theorem blk0_0 (c : Dev nD) (t : Fin cfg0.N) (r : Fin 2000) (k : Fin 128) :
    iblk0 V c 0 t (ix2 r k) = (V c main_v24 : S50000x128.Idx → EReal) (ix2 (rowAt t.val (tlt t) r) k) := by
  obtain ⟨e0, e1, -⟩ := idx_facts0 t
  show V c main_v24 (((cfg0.win 0).blk t).view.emb (ix2 r k)) = _
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

theorem blk0_1 (c : Dev nD) (t : Fin cfg0.N) (r : Fin 2000) (k : Fin 128) :
    iblk0 V c 1 t (ix2 r k) = (V c main_arg0 : S50000x128.Idx → EReal) (ix2 (rowAt t.val (tlt t) r) k) := by
  obtain ⟨-, -, e0, e1, -⟩ := idx_facts0 t
  show V c main_arg0 (((cfg0.win 1).blk t).view.emb (ix2 r k)) = _
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * k.val = k.val; omega

theorem blk0_2 (c : Dev nD) (t : Fin cfg0.N) (r : Fin 2000) :
    iblk0 V c 2 t (ix2 r 0) = (V c main_v12 : S50000x1.Idx → EReal) (ix2 (rowAt t.val (tlt t) r) 0) := by
  obtain ⟨-, -, -, -, e0, e1, -⟩ := idx_facts0 t
  show V c main_v12 (((cfg0.win 2).blk t).view.emb (ix2 r 0)) = _
  refine congrArg _ (funext fun a => Fin.ext ?_)
  match a with
  | ⟨0, _⟩ => show win0_2.index t (0 : Fin 2) * 2000 + 1 * r.val = t.val * 2000 + r.val; omega
  | ⟨1, _⟩ => show win0_2.index t (1 : Fin 2) * 1 + 1 * 0 = 0; omega

theorem blk0_3 (c : Dev nD) (t : Fin cfg0.N) (k : Fin 128) (j : Fin 256) :
    iblk0 V c 3 t (ix2 k j) = (V c main_v25 : S128x256.Idx → EReal) (ix2 k j) := by
  obtain ⟨-, -, -, -, -, -, e0, e1, -⟩ := idx_facts0 t
  show V c main_v25 (((cfg0.win 3).blk t).view.emb (ix2 k j)) = _
  refine congrArg _ (funext fun a => Fin.ext ?_)
  match a with
  | ⟨0, _⟩ => show win0_3.index t (0 : Fin 2) * 128 + 1 * k.val = k.val; omega
  | ⟨1, _⟩ => show win0_3.index t (1 : Fin 2) * 256 + 1 * j.val = j.val; omega

theorem blk0_4 (c : Dev nD) (t : Fin cfg0.N) (k : Fin 128) (j : Fin 256) :
    iblk0 V c 4 t (ix2 k j) = (V c main_v26 : S128x256.Idx → EReal) (ix2 k j) := by
  obtain ⟨-, -, -, -, -, -, -, -, e0, e1, -⟩ := idx_facts0 t
  show V c main_v26 (((cfg0.win 4).blk t).view.emb (ix2 k j)) = _
  refine congrArg _ (funext fun a => Fin.ext ?_)
  match a with
  | ⟨0, _⟩ => show win0_4.index t (0 : Fin 2) * 128 + 1 * k.val = k.val; omega
  | ⟨1, _⟩ => show win0_4.index t (1 : Fin 2) * 256 + 1 * j.val = j.val; omega

theorem blk0_5 (c : Dev nD) (t : Fin cfg0.N) (j : Fin 256) :
    iblk0 V c 5 t (ix2 0 j) = (V c main_v30 : S1x256.Idx → EReal) (ix2 0 j) := by
  obtain ⟨-, -, -, -, -, -, -, -, -, -, e0, e1, -⟩ := idx_facts0 t
  show V c main_v30 (((cfg0.win 5).blk t).view.emb (ix2 0 j)) = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * j.val = j.val; omega

theorem blk0_6 (c : Dev nD) (t : Fin cfg0.N) (k : Fin 256) (j : Fin 64) :
    iblk0 V c 6 t (ix2 k j) = (V c main_v27 : S256x64.Idx → EReal) (ix2 k j) := by
  obtain ⟨-, -, -, -, -, -, -, -, -, -, -, -, e0, e1, -⟩ := idx_facts0 t
  show V c main_v27 (((cfg0.win 6).blk t).view.emb (ix2 k j)) = _
  refine congrArg _ (funext fun a => Fin.ext ?_)
  match a with
  | ⟨0, _⟩ => show win0_6.index t (0 : Fin 2) * 256 + 1 * k.val = k.val; omega
  | ⟨1, _⟩ => show win0_6.index t (1 : Fin 2) * 64 + 1 * j.val = j.val; omega

/-! ## What a point writes back is its block of the whole-array function -/

theorem flushed0_7_eq (c : Dev nD) (t : Fin cfg0.N) :
    (dat0 (F := Ideal) V c).flushed 7 t = ((cfg0.win 7).blk t).view.read (Elt Ideal)
      (Hof (V c main_v24) (V c main_arg0) (V c main_v12) (V c main_v25) (V c main_v26) (V c main_v30)) := by
  show (cfg0.win 7).cut (grid0.coords t) ((dat0 V c).after 7 t) = _
  rw [after0_7]
  unfold out0_7
  rw [View.canon_unit_zero hz]
  simp only [View.ld_unit_zero (S := S2000x1) hz, View.ld_unit_zero (S := S2000x128) hz, View.ld_unit_zero (S := S128x256) hz,
    View.ld_unit_zero (S := S1x256) hz]
  obtain ⟨-, -, -, -, -, -, -, -, -, -, -, -, -, -, e0, e1, -⟩ := idx_facts0 t
  funext y
  show k0_pay1 (iblk0 V c 2 t) (iblk0 V c 0 t) (iblk0 V c 1 t) (iblk0 V c 3 t) (iblk0 V c 4 t) (iblk0 V c 5 t) y
    = Hof _ _ _ _ _ _ (((cfg0.win 7).blk t).view.emb y)
  refine (congrArg _ (eq_ix2 y)).trans ?_
  exact hid_point _ _ _ _ _ _ _ _ _ _ _ _ t.val (tlt t) (blk0_0 V c t) (blk0_1 V c t) (blk0_2 V c t) (blk0_3 V c t)
    (blk0_4 V c t) (blk0_5 V c t) (y 0) (y 1) _
    (show win0_7.index t (0 : Fin 2) * 2000 + 1 * (y 0).val = t.val * 2000 + (y 0).val by omega)
    (show win0_7.index t (1 : Fin 2) * 256 + 1 * (y 1).val = (y 1).val by omega)

theorem flushed0_8_eq (c : Dev nD) (t : Fin cfg0.N) :
    (dat0 (F := Ideal) V c).flushed 8 t = ((cfg0.win 8).blk t).view.read (Elt Ideal)
      (Pof (V c main_v24) (V c main_arg0) (V c main_v12) (V c main_v25) (V c main_v26) (V c main_v30) (V c main_v27)) := by
  show (cfg0.win 8).cut (grid0.coords t) ((dat0 V c).after 8 t) = _
  rw [after0_8]
  unfold out0_8
  rw [View.canon_unit_zero hz]
  simp only [View.ld_unit_zero (S := S2000x1) hz, View.ld_unit_zero (S := S2000x128) hz, View.ld_unit_zero (S := S128x256) hz,
    View.ld_unit_zero (S := S1x256) hz, View.ld_unit_zero (S := S256x64) hz]
  obtain ⟨-, -, -, -, -, -, -, -, -, -, -, -, -, -, -, -, e0, e1⟩ := idx_facts0 t
  funext y
  show k0_pay2 (iblk0 V c 2 t) (iblk0 V c 0 t) (iblk0 V c 1 t) (iblk0 V c 3 t) (iblk0 V c 4 t) (iblk0 V c 5 t) (iblk0 V c 6 t) y
    = Pof _ _ _ _ _ _ _ (((cfg0.win 8).blk t).view.emb y)
  refine (congrArg _ (eq_ix2 y)).trans ?_
  exact proj_point _ _ _ _ _ _ _ _ _ _ _ _ _ _ t.val (tlt t) (blk0_0 V c t) (blk0_1 V c t) (blk0_2 V c t) (blk0_3 V c t)
    (blk0_4 V c t) (blk0_5 V c t) (blk0_6 V c t) (y 0) (y 1) _
    (show win0_8.index t (0 : Fin 2) * 2000 + 1 * (y 0).val = t.val * 2000 + (y 0).val by omega)
    (show win0_8.index t (1 : Fin 2) * 64 + 1 * (y 1).val = (y 1).val by omega)

/-! ## The row blocks cover the arrays -/

theorem mem_blk0_7 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v31_0).slice (win0_7.rect t)).set ↔ _
  rw [View.set_slice_whole, Rect.mem_set_unit]
  exact Iff.rfl

theorem mem_blk0_8 (t : Fin cfg0.N) (i : S50000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v31_1).slice (win0_8.rect t)).set ↔ _
  rw [View.set_slice_whole, Rect.mem_set_unit]
  exact Iff.rfl

theorem covered0_7 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, -, -, -, -, -, -, -, -, e0, e1, -⟩ := idx_facts0 t
  refine ⟨t, flush0_7 t, ?_⟩
  rw [mem_blk0_7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 256 ≤ (i 1).val ∧ (i 1).val < win0_7.index t (1 : Fin 2) * 256 + 256; omega

theorem covered0_8 (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, -, -, -, -, -, -, -, -, -, -, e0, e1⟩ := idx_facts0 t
  refine ⟨t, flush0_8 t, ?_⟩
  rw [mem_blk0_8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 64 ≤ (i 1).val ∧ (i 1).val < win0_8.index t (1 : Fin 2) * 64 + 64; omega

/-! ## The arrays after the region -/

/-- The hidden array after the 25 write-backs. -/
theorem hid_final (c : Dev nD) : (dat0 (F := Ideal) V c).arrAt 7 cfg0.N
    = Hof (V c main_v24) (V c main_arg0) (V c main_v12) (V c main_v25) (V c main_v26) (V c main_v30) :=
  (dat0 V c).arrAt_eq_of_cover 7 _ (fun t _ => flushed0_7_eq V c t) covered0_7

/-- The projected array after the 25 write-backs. -/
theorem proj_final (c : Dev nD) : (dat0 (F := Ideal) V c).arrAt 8 cfg0.N
    = Pof (V c main_v24) (V c main_arg0) (V c main_v12) (V c main_v25) (V c main_v26) (V c main_v30) (V c main_v27) :=
  (dat0 V c).arrAt_eq_of_cover 8 _ (fun t _ => flushed0_8_eq V c t) covered0_8

end Cert.GraphAE.Ker

end
-- ==== Proof.KBlocks1.lean ====
/-
  The second region, from blocks to whole arrays. Its 25 grid points work on the same row blocks as the first
  region's: point t reads rows 2000·t … of the aggregated projected rows, of the hidden rows and of the reciprocal
  degrees, the two weight matrices and the two biases whole, and writes those rows of the latent array and of the
  decoded array. After the 25 write-backs each result array is one function of the arrays the region found.
  Stated for any contents V of the buffers at the region's entry.
-/
import proofs.«165848_j85315230367791_2_alg».proof.Proof.KBlocks0

set_option maxRecDepth 16384

noncomputable section

namespace Cert.GraphAE.Ker

open Cert.KernelIdeal Cert.KernelIdeal.Gen Cert.GraphAE
open Idealize.ShloMosaic Idealize.ShloMosaic.TcCoe Idealize.ShloMosaic.ValueIdx Idealize.SL.Sem
open Idealize.ShloMosaic.Pipeline (Dat Cfg Window)

/-- The latent array as a function of the arrays the second region finds. -/
def Zof (S2 : S50000x64.Idx → EReal) (h : S50000x256.Idx → EReal) (inv : S50000x1.Idx → EReal) (Wr : S256x64.Idx → EReal)
    (b : S1x64.Idx → EReal) : S50000x64.Idx → EReal :=
  fun i => latRows (n := 50000) (cur2 S2) (cur2 h) (fun r => inv (ix2 r 0)) (fun j => b (ix2 0 j)) (cur2 Wr) (i 0) (i 1)

/-- The decoded array as a function of the arrays the second region finds. -/
def Xof (S2 : S50000x64.Idx → EReal) (h : S50000x256.Idx → EReal) (inv : S50000x1.Idx → EReal) (Wr : S256x64.Idx → EReal)
    (b : S1x64.Idx → EReal) (Wd : S64x128.Idx → EReal) (bd : S1x128.Idx → EReal) : S50000x128.Idx → EReal :=
  fun i => decRows (n := 50000) (latRows (n := 50000) (cur2 S2) (cur2 h) (fun r => inv (ix2 r 0)) (fun j => b (ix2 0 j)) (cur2 Wr))
    (cur2 Wd) (fun j => bd (ix2 0 j)) (i 0) (i 1)

/-! ## One grid point -/

theorem lat_point (S2 : S50000x64.Idx → EReal) (h : S50000x256.Idx → EReal) (inv : S50000x1.Idx → EReal) (Wr : S256x64.Idx → EReal)
    (b : S1x64.Idx → EReal)
    (x0 : FVec Ideal S2000x64 .f32) (x1 : FVec Ideal S2000x256 .f32) (x2 : FVec Ideal S2000x1 .f32) (x3 : FVec Ideal S256x64 .bf16)
    (x4 : FVec Ideal S1x64 .f32)
    (T : ℕ) (hT : T < 25)
    (h0 : ∀ (r : Fin 2000) (k : Fin 64), x0 (ix2 r k) = S2 (ix2 (rowAt T hT r) k))
    (h1 : ∀ (r : Fin 2000) (k : Fin 256), x1 (ix2 r k) = h (ix2 (rowAt T hT r) k))
    (h2 : ∀ (r : Fin 2000), x2 (ix2 r 0) = inv (ix2 (rowAt T hT r) 0))
    (h3 : ∀ (k : Fin 256) (j : Fin 64), x3 (ix2 k j) = Wr (ix2 k j))
    (h4 : ∀ (j : Fin 64), x4 (ix2 0 j) = b (ix2 0 j))
    (r : Fin 2000) (j : Fin 64) (i : S50000x64.Idx) (hi0 : (i 0).val = T * 2000 + r.val) (hi1 : (i 1).val = j.val) :
    k1_pay1 (F := Ideal) x2 x0 x1 x4 x3 (ix2 r j) = Zof S2 h inv Wr b i := by
  have hi : i = ix2 (rowAt T hT r) j := funext fun a => Fin.ext (by
    match a with
    | ⟨0, _⟩ => exact hi0
    | ⟨1, _⟩ => exact hi1)
  subst hi
  refine (lat_block x2 x0 x1 x4 x3 r j).trans ?_
  show latRows _ _ _ _ _ r j = latRows _ _ _ _ _ (rowAt T hT r) j
  unfold latRows cur2
  simp only [h0, h1, h2, h3, h4]

theorem dec_point (S2 : S50000x64.Idx → EReal) (h : S50000x256.Idx → EReal) (inv : S50000x1.Idx → EReal) (Wr : S256x64.Idx → EReal)
    (b : S1x64.Idx → EReal) (Wd : S64x128.Idx → EReal) (bd : S1x128.Idx → EReal)
    (x0 : FVec Ideal S2000x64 .f32) (x1 : FVec Ideal S2000x256 .f32) (x2 : FVec Ideal S2000x1 .f32) (x3 : FVec Ideal S256x64 .bf16)
    (x4 : FVec Ideal S1x64 .f32) (x5 : FVec Ideal S64x128 .bf16) (x6 : FVec Ideal S1x128 .f32)
    (T : ℕ) (hT : T < 25)
    (h0 : ∀ (r : Fin 2000) (k : Fin 64), x0 (ix2 r k) = S2 (ix2 (rowAt T hT r) k))
    (h1 : ∀ (r : Fin 2000) (k : Fin 256), x1 (ix2 r k) = h (ix2 (rowAt T hT r) k))
    (h2 : ∀ (r : Fin 2000), x2 (ix2 r 0) = inv (ix2 (rowAt T hT r) 0))
    (h3 : ∀ (k : Fin 256) (j : Fin 64), x3 (ix2 k j) = Wr (ix2 k j))
    (h4 : ∀ (j : Fin 64), x4 (ix2 0 j) = b (ix2 0 j))
    (h5 : ∀ (k : Fin 64) (j : Fin 128), x5 (ix2 k j) = Wd (ix2 k j))
    (h6 : ∀ (j : Fin 128), x6 (ix2 0 j) = bd (ix2 0 j))
    (r : Fin 2000) (j : Fin 128) (i : S50000x128.Idx) (hi0 : (i 0).val = T * 2000 + r.val) (hi1 : (i 1).val = j.val) :
    k1_pay2 (F := Ideal) x2 x0 x1 x4 x3 x5 x6 (ix2 r j) = Xof S2 h inv Wr b Wd bd i := by
  have hi : i = ix2 (rowAt T hT r) j := funext fun a => Fin.ext (by
    match a with
    | ⟨0, _⟩ => exact hi0
    | ⟨1, _⟩ => exact hi1)
  subst hi
  refine (dec_block x2 x0 x1 x4 x3 x5 x6 r j).trans ?_
  show decRows (latRows _ _ _ _ _) _ _ r j = decRows (latRows _ _ _ _ _) _ _ (rowAt T hT r) j
  unfold decRows latRows cur2
  simp only [h0, h1, h2, h3, h4, h5, h6]

/-! ## The index maps, decided over the grid -/

theorem tlt1 (t : Fin cfg1.N) : t.val < 25 := lt_of_lt_of_eq t.isLt N_1

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-! ## Each input block read where it sits in its array -/

theorem blk1_0 (c : Dev nD) (t : Fin cfg1.N) (r : Fin 2000) (k : Fin 64) :
    iblk1 V c 0 t (ix2 r k) = (V c main_v43 : S50000x64.Idx → EReal) (ix2 (rowAt t.val (tlt1 t) r) k) := by
  obtain ⟨e0, e1, -⟩ := idx_facts1 t
  show V c main_v43 (((cfg1.win 0).blk t).view.emb (ix2 r k)) = _
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 64 + 1 * k.val = k.val; omega

theorem blk1_1 (c : Dev nD) (t : Fin cfg1.N) (r : Fin 2000) (k : Fin 256) :
    iblk1 V c 1 t (ix2 r k) = (V c main_v31_0 : S50000x256.Idx → EReal) (ix2 (rowAt t.val (tlt1 t) r) k) := by
  obtain ⟨-, -, e0, e1, -⟩ := idx_facts1 t
  show V c main_v31_0 (((cfg1.win 1).blk t).view.emb (ix2 r k)) = _
  refine congrArg _ (funext fun a => Fin.ext ?_)
  match a with
  | ⟨0, _⟩ => show win1_1.index t (0 : Fin 2) * 2000 + 1 * r.val = t.val * 2000 + r.val; omega
  | ⟨1, _⟩ => show win1_1.index t (1 : Fin 2) * 256 + 1 * k.val = k.val; omega

theorem blk1_2 (c : Dev nD) (t : Fin cfg1.N) (r : Fin 2000) :
    iblk1 V c 2 t (ix2 r 0) = (V c main_v12 : S50000x1.Idx → EReal) (ix2 (rowAt t.val (tlt1 t) r) 0) := by
  obtain ⟨-, -, -, -, e0, e1, -⟩ := idx_facts1 t
  show V c main_v12 (((cfg1.win 2).blk t).view.emb (ix2 r 0)) = _
  refine congrArg _ (funext fun a => Fin.ext ?_)
  match a with
  | ⟨0, _⟩ => show win1_2.index t (0 : Fin 2) * 2000 + 1 * r.val = t.val * 2000 + r.val; omega
  | ⟨1, _⟩ => show win1_2.index t (1 : Fin 2) * 1 + 1 * 0 = 0; omega

theorem blk1_3 (c : Dev nD) (t : Fin cfg1.N) (k : Fin 256) (j : Fin 64) :
    iblk1 V c 3 t (ix2 k j) = (V c main_v28 : S256x64.Idx → EReal) (ix2 k j) := by
  obtain ⟨-, -, -, -, -, -, e0, e1, -⟩ := idx_facts1 t
  show V c main_v28 (((cfg1.win 3).blk t).view.emb (ix2 k j)) = _
  refine congrArg _ (funext fun a => Fin.ext ?_)
  match a with
  | ⟨0, _⟩ => show win1_3.index t (0 : Fin 2) * 256 + 1 * k.val = k.val; omega
  | ⟨1, _⟩ => show win1_3.index t (1 : Fin 2) * 64 + 1 * j.val = j.val; omega

theorem blk1_4 (c : Dev nD) (t : Fin cfg1.N) (j : Fin 64) :
    iblk1 V c 4 t (ix2 0 j) = (V c main_v44 : S1x64.Idx → EReal) (ix2 0 j) := by
  obtain ⟨-, -, -, -, -, -, -, -, e0, e1, -⟩ := idx_facts1 t
  show V c main_v44 (((cfg1.win 4).blk t).view.emb (ix2 0 j)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * j.val = j.val; omega

theorem blk1_5 (c : Dev nD) (t : Fin cfg1.N) (k : Fin 64) (j : Fin 128) :
    iblk1 V c 5 t (ix2 k j) = (V c main_v29 : S64x128.Idx → EReal) (ix2 k j) := by
  obtain ⟨-, -, -, -, -, -, -, -, -, -, e0, e1, -⟩ := idx_facts1 t
  show V c main_v29 (((cfg1.win 5).blk t).view.emb (ix2 k j)) = _
  refine congrArg _ (funext fun a => Fin.ext ?_)
  match a with
  | ⟨0, _⟩ => show win1_5.index t (0 : Fin 2) * 64 + 1 * k.val = k.val; omega
  | ⟨1, _⟩ => show win1_5.index t (1 : Fin 2) * 128 + 1 * j.val = j.val; omega

theorem blk1_6 (c : Dev nD) (t : Fin cfg1.N) (j : Fin 128) :
    iblk1 V c 6 t (ix2 0 j) = (V c main_v45 : S1x128.Idx → EReal) (ix2 0 j) := by
  obtain ⟨-, -, -, -, -, -, -, -, -, -, -, -, e0, e1, -⟩ := idx_facts1 t
  show V c main_v45 (((cfg1.win 6).blk t).view.emb (ix2 0 j)) = _
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega

/-! ## What a point writes back is its block of the whole-array function -/

theorem flushed1_7_eq (c : Dev nD) (t : Fin cfg1.N) :
    (dat1 (F := Ideal) V c).flushed 7 t = ((cfg1.win 7).blk t).view.read (Elt Ideal)
      (Zof (V c main_v43) (V c main_v31_0) (V c main_v12) (V c main_v28) (V c main_v44)) := by
  show (cfg1.win 7).cut (grid1.coords t) ((dat1 V c).after 7 t) = _
  rw [after1_7]
  unfold out1_7
  rw [View.canon_unit_zero hz]
  simp only [View.ld_unit_zero (S := S2000x1) hz, View.ld_unit_zero (S := S2000x64) hz, View.ld_unit_zero (S := S2000x256) hz,
    View.ld_unit_zero (S := S1x64) hz, View.ld_unit_zero (S := S256x64) hz]
  obtain ⟨-, -, -, -, -, -, -, -, -, -, -, -, -, -, e0, e1, -⟩ := idx_facts1 t
  funext y
  show k1_pay1 (iblk1 V c 2 t) (iblk1 V c 0 t) (iblk1 V c 1 t) (iblk1 V c 4 t) (iblk1 V c 3 t) y
    = Zof _ _ _ _ _ (((cfg1.win 7).blk t).view.emb y)
  refine (congrArg _ (eq_ix2 y)).trans ?_
  exact lat_point _ _ _ _ _ _ _ _ _ _ t.val (tlt1 t) (blk1_0 V c t) (blk1_1 V c t) (blk1_2 V c t) (blk1_3 V c t)
    (blk1_4 V c t) (y 0) (y 1) _
    (show win1_7.index t (0 : Fin 2) * 2000 + 1 * (y 0).val = t.val * 2000 + (y 0).val by omega)
    (show win1_7.index t (1 : Fin 2) * 64 + 1 * (y 1).val = (y 1).val by omega)

theorem flushed1_8_eq (c : Dev nD) (t : Fin cfg1.N) :
    (dat1 (F := Ideal) V c).flushed 8 t = ((cfg1.win 8).blk t).view.read (Elt Ideal)
      (Xof (V c main_v43) (V c main_v31_0) (V c main_v12) (V c main_v28) (V c main_v44) (V c main_v29) (V c main_v45)) := by
  show (cfg1.win 8).cut (grid1.coords t) ((dat1 V c).after 8 t) = _
  rw [after1_8]
  unfold out1_8
  rw [View.canon_unit_zero hz]
  simp only [View.ld_unit_zero (S := S2000x1) hz, View.ld_unit_zero (S := S2000x64) hz, View.ld_unit_zero (S := S2000x256) hz,
    View.ld_unit_zero (S := S1x64) hz, View.ld_unit_zero (S := S256x64) hz, View.ld_unit_zero (S := S64x128) hz,
    View.ld_unit_zero (S := S1x128) hz]
  obtain ⟨-, -, -, -, -, -, -, -, -, -, -, -, -, -, -, -, e0, e1⟩ := idx_facts1 t
  funext y
  show k1_pay2 (iblk1 V c 2 t) (iblk1 V c 0 t) (iblk1 V c 1 t) (iblk1 V c 4 t) (iblk1 V c 3 t) (iblk1 V c 5 t) (iblk1 V c 6 t) y
    = Xof _ _ _ _ _ _ _ (((cfg1.win 8).blk t).view.emb y)
  refine (congrArg _ (eq_ix2 y)).trans ?_
  exact dec_point _ _ _ _ _ _ _ _ _ _ _ _ _ _ t.val (tlt1 t) (blk1_0 V c t) (blk1_1 V c t) (blk1_2 V c t) (blk1_3 V c t)
    (blk1_4 V c t) (blk1_5 V c t) (blk1_6 V c t) (y 0) (y 1) _
    (show win1_8.index t (0 : Fin 2) * 2000 + 1 * (y 0).val = t.val * 2000 + (y 0).val by omega)
    (show win1_8.index t (1 : Fin 2) * 128 + 1 * (y 1).val = (y 1).val by omega)

/-! ## The row blocks cover the arrays -/

theorem mem_blk1_7 (t : Fin cfg1.N) (i : S50000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v46_0).slice (win1_7.rect t)).set ↔ _
  rw [View.set_slice_whole, Rect.mem_set_unit]
  exact Iff.rfl

theorem mem_blk1_8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v46_1).slice (win1_8.rect t)).set ↔ _
  rw [View.set_slice_whole, Rect.mem_set_unit]
  exact Iff.rfl

theorem covered1_7 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, -, -, -, -, e0, e1, -⟩ := idx_facts1 t
  refine ⟨t, flush1_7 t, ?_⟩
  rw [mem_blk1_7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 64 ≤ (i 1).val ∧ (i 1).val < win1_7.index t (1 : Fin 2) * 64 + 64; omega

theorem covered1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, -, -, -, -, -, -, e0, e1⟩ := idx_facts1 t
  refine ⟨t, flush1_8 t, ?_⟩
  rw [mem_blk1_8]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-! ## The arrays after the region -/

/-- The latent array after the 25 write-backs. -/
theorem lat_final (c : Dev nD) : (dat1 (F := Ideal) V c).arrAt 7 cfg1.N
    = Zof (V c main_v43) (V c main_v31_0) (V c main_v12) (V c main_v28) (V c main_v44) :=
  (dat1 V c).arrAt_eq_of_cover 7 _ (fun t _ => flushed1_7_eq V c t) covered1_7

/-- The decoded array after the 25 write-backs. -/
theorem dec_final (c : Dev nD) : (dat1 (F := Ideal) V c).arrAt 8 cfg1.N
    = Xof (V c main_v43) (V c main_v31_0) (V c main_v12) (V c main_v28) (V c main_v44) (V c main_v29) (V c main_v45) :=
  (dat1 V c).arrAt_eq_of_cover 8 _ (fun t _ => flushed1_8_eq V c t) covered1_8

end Cert.GraphAE.Ker

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«165848_j85315230367791_2_alg».proof.Proof.LibRows
import proofs.«165848_j85315230367791_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.LibFlatScatter.lean ====
/-
  An accumulating scatter into a flat array, read at an entry as a plain sum over the edges, for any sizes.

  The operand has N entries, the index array one word per edge (carried with a trailing unit axis), the updates one
  value per edge.  An edge's update lands on entry i exactly when its word, read as a signed integer and not clamped,
  is i; a word that reads as no entry lands nowhere.  So

      scatter(x, idx, u)(i) = x(i) + ∑ e, (if idx(e) reads as i then u(e) else 0).
-/
import proofs.«165848_j85315230367791_2_alg».proof.Proof.LibDegree

noncomputable section

namespace Cert.LibFlatScatter

open Idealize.ShloMosaic Idealize.ShloMosaic.ValueIdx

variable {N E w : ℕ}

/-- THE FLAT ACCUMULATING SCATTER AT AN ENTRY. -/
theorem flatScatter_apply (wf1 : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (i : Fin N) :
    Ideal.hostScatterAdd (⟨[], [0], [0], 1, wf1⟩ : ScatterDims ⟨1, ![N]⟩ ⟨2, ![E, 1]⟩ ⟨1, ![E]⟩) x idx u (ix1 i)
      = x (ix1 i) + ∑ e : Fin E, if (idx (ix2 e 0)).toInt = (i.val : Int) then u (ix1 e) else 0 := by
  unfold Ideal.hostScatterAdd
  congr 1
  rw [Finset.sum_filter, ← Cert.Sage.flatEquiv.symm.sum_comp]
  refine Finset.sum_congr rfl fun e _ => ?_
  show (if ScatterDims.resultIdx? _ (ix1 e) idx = some (ix1 i) then u (ix1 e) else 0) = _
  exact if_congr (Cert.Sage.flat_lands wf1 idx e i) rfl rfl

end Cert.LibFlatScatter

end
-- ==== Proof.LibRecip.lean ====
/-
  Multiplying by a reciprocal against dividing, over the extended reals.

  A program that carries `1 / d` and multiplies agrees with one that divides by `d` as soon as `d` is not zero: off
  zero a quotient `a / d` is `a · d⁻¹`, and `1 / d` is `1 · d⁻¹ = d⁻¹`, at the infinities too (`(±∞)⁻¹ = 0`).  A
  divisor that is a maximum with one (a clamped count) is at least one, hence not zero.  No finiteness is needed.
-/
import Idealize.ShloMosaic.PureOps.Ideal

noncomputable section

namespace Cert.LibRecip

open Idealize.ShloMosaic

/-- The single-precision pattern of one denotes the number one. -/
theorem one_f32 : Ideal.ofBits .f32 0x3F800000#32 = 1 := by
  simp [Ideal.ofBits, Ideal.ieee, -EReal.coe_mul]; norm_num

/-- Multiplying by the reciprocal of a nonzero extended real is dividing by it. -/
theorem mul_recip_of_ne_zero (a d : EReal) (hne : d ≠ 0) : a * Ideal.div 1 d = Ideal.div a d := by
  rw [Ideal.div, if_neg hne, Ideal.div, if_neg hne, one_mul]

/-- Multiplying by the reciprocal of a number that is at least one is dividing by it, on every extended real. -/
theorem mul_recip (a d : EReal) (hd : 1 ≤ d) : a * Ideal.div 1 d = Ideal.div a d :=
  mul_recip_of_ne_zero a d fun h => by rw [h] at hd; exact absurd hd (by norm_num)

end Cert.LibRecip

end
-- ==== Proof.KHost0.lean ====
/-
  The second arrangement's host side before its first grid region, read at an entry.

  Before the first region a stretch of whole-array operations prepares the region's operands from the launch arrays:
  the source words are row 0 of the edge array (a negative word moved up by the number of nodes) and the destination
  words are row 1, both carried as a column; the features are narrowed, their rows gathered by the source words,
  widened, and accumulated by destination into an array of zeros; a one per edge is accumulated by destination into
  zeros, clamped below at one, and one is divided by it; the weight matrices are narrowed and the bias is recast as one
  row.  On the extended reals narrowing and widening are the identity, the pattern 0 denotes zero and the pattern
  0x3F800000 denotes one, a gather of rows reads the operand's row at the clamped word, and an accumulating scatter
  into zeros is the sum over the edges whose destination word reads as the row.  So the aggregated-features array is
  the sum over arriving edges of the source node's features, and the reciprocal column is one over the clamped
  in-degree, both in terms of the two prepared word arrays; the other operands are the launch arrays themselves.
-/
import proofs.«165848_j85315230367791_2_alg».proof.Proof.Gen.KernelIdeal.Frame
import proofs.«165848_j85315230367791_2_alg».proof.Proof.Rows
import proofs.«165848_j85315230367791_2_alg».proof.Proof.LibRows
import proofs.«165848_j85315230367791_2_alg».proof.Proof.LibSegment
import proofs.«165848_j85315230367791_2_alg».proof.Proof.LibFlatScatter
import proofs.«165848_j85315230367791_2_alg».proof.Proof.LibRecip
import proofs.«165848_j85315230367791_2_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.GraphAE.Ker

open Idealize.ShloMosaic Idealize.ShloMosaic.ValueIdx Idealize.ShloMosaic.TcCoe
open Idealize.SL.Sem
open Cert.KernelIdeal Cert.KernelIdeal.Gen

/-- The source words as the host operations prepare them: row 0 of the edge array, a negative word moved up by the
    number of nodes, carried as a column. -/
def srcK (e : IVec S2x800000 32) : IVec S800000x1 32 :=
  broadcastInDim S800000x1 ![0] bcast_S800000_S800000x1_0
    (select
      (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The destination words: row 1 of the edge array, carried as a column. -/
def dstK (e : IVec S2x800000 32) : IVec S800000x1 32 :=
  broadcastInDim S800000x1 ![0] bcast_S800000_S800000x1_0
    (shapeCast S800000 (extractStridedSlice S1x800000 ![1, 0] e slices_S2x800000_S1x800000_1_0) shapeCasts_S1x800000_S800000)

variable (m : (ℓ : Loc nD τ sig) → Buf (Elt Ideal) ℓ) (ρ : Dev nD → PrngReg)

/-! ## The gathers and scatters of this program read at an entry -/

theorem hostDivf_apply {s : Shape} (a b : FVec Ideal s .f32) (i : s.Idx) : Host.divf a b i = Ideal.div (a i) (b i) := rfl

/-- The accumulating scatter of one value per edge into one entry per node. -/
theorem cntScatter_apply (x : FVec Ideal S50000 .f32) (idx : IVec S800000x1 32) (u : FVec Ideal S800000 .f32) (r : Fin 50000) :
    Host.scatterAdd scatter_S50000_S800000x1_S800000_n_0_0_1 x idx u (ix1 r)
      = x (ix1 r) + ∑ ed : Fin 800000, if (idx (ix2 ed 0)).toInt = (r.val : Int) then u (ix1 ed) else 0 :=
  Cert.LibFlatScatter.flatScatter_apply _ x idx u r

/-- The accumulating scatter of one row of 128 per edge into one row per node. -/
theorem rowScatter128_apply (x : FVec Ideal S50000x128 .f32) (idx : IVec S800000x1 32) (u : FVec Ideal S800000x128 .f32)
    (i : Fin 50000) (k : Fin 128) :
    Host.scatterAdd scatter_S50000x128_S800000x1_S800000x128_1_0_0_1 x idx u (ix2 i k)
      = x (ix2 i k) + ∑ ed : Fin 800000, if (idx (ix2 ed 0)).toInt = (i.val : Int) then u (ix2 ed k) else 0 :=
  Cert.LibSegment.rowScatter_apply _ x idx u i k

/-- The gather of one row of 128 per edge. -/
theorem rowGather128_apply (x : FVec Ideal S50000x128 .bf16) (idx : IVec S800000x1 32) (ed : Fin 800000) (k : Fin 128) :
    Host.gather gather_S50000x128_S800000x1_S800000x128_1_0_n_n_0_1_1128 x idx (ix2 ed k) = x (ix2 (srcRow idx ed) k) :=
  Cert.LibRows.row_gather_apply _ (by norm_num) x idx ed k

/-! ## What the first stretch of host operations leaves in each buffer, as a term over the launch contents -/

/-- The aggregated-features buffer: the accumulating scatter, from zeros, by destination, of the gathered rows. -/
theorem e24 (c : Dev nD) : (V1 m ρ c main_v24 : S50000x128.Idx → EReal)
    = Host.scatterAdd scatter_S50000x128_S800000x1_S800000x128_1_0_0_1
        (broadcastInDim S50000x128 ![] bcast_S_S50000x128 (constant (F := Ideal) S_ .f32 0x00000000#32))
        (dstK (m ((c : Thread nD τ).loc main_arg1)))
        (extf .f32 (Host.gather gather_S50000x128_S800000x1_S800000x128_1_0_n_n_0_1_1128
          (truncf .bf16 (m ((c : Thread nD τ).loc main_arg0) : FVec Ideal S50000x128 .f32) bitsLt_bf16_f32)
          (srcK (m ((c : Thread nD τ).loc main_arg1)))) bitsLt_bf16_f32) := by
  dsimp only [V1, W1, hostOps0]
  after_results_simp <;> rfl

/-- The reciprocal-degree buffer: one over the maximum of the edge count and one, as a column. -/
theorem e12 (c : Dev nD) : (V1 m ρ c main_v12 : S50000x1.Idx → EReal)
    = shapeCast S50000x1
        (Host.divf (broadcastInDim S50000 ![] bcast_S_S50000 (constant (F := Ideal) S_ .f32 0x3F800000#32))
          (maximumf
            (Host.scatterAdd scatter_S50000_S800000x1_S800000_n_0_0_1
              (broadcastInDim S50000 ![] bcast_S_S50000 (constant (F := Ideal) S_ .f32 0x00000000#32))
              (dstK (m ((c : Thread nD τ).loc main_arg1)))
              (broadcastInDim S800000 ![] bcast_S_S800000 (constant (F := Ideal) S_ .f32 0x3F800000#32)))
            (broadcastInDim S50000 ![] bcast_S_S50000 (constant (F := Ideal) S_ .f32 0x3F800000#32))))
        shapeCasts_S50000_S50000x1 := by
  dsimp only [V1, W1, hostOps0]
  after_results_simp <;> rfl

/-! ## Read at an entry -/

/-- The aggregated features are the sum over arriving edges of the source node's features. -/
theorem v24_eq (c : Dev nD) : cur2 (V1 m ρ c main_v24 : S50000x128.Idx → EReal)
    = agg (srcK (m ((c : Thread nD τ).loc main_arg1))) (dstK (m ((c : Thread nD τ).loc main_arg1)))
        (cur2 (m ((c : Thread nD τ).loc main_arg0) : S50000x128.Idx → EReal)) := by
  funext i k
  show (V1 m ρ c main_v24 : S50000x128.Idx → EReal) (ix2 i k) = _
  rw [e24, rowScatter128_apply, broadcastInDim_scalar_apply, constant_apply, Ideal.ofBits_zero_f32]
  unfold agg
  refine congrArg _ (Finset.sum_congr rfl fun ed _ => ?_)
  rw [extf_apply, rowGather128_apply, truncf_apply]
  rfl

/-- The reciprocal-degree column is the reciprocal of the clamped in-degree. -/
theorem v12_eq (c : Dev nD) : (fun r : Fin 50000 => (V1 m ρ c main_v12 : S50000x1.Idx → EReal) (ix2 r 0))
    = invDeg (dstK (m ((c : Thread nD τ).loc main_arg1))) := by
  funext r
  show (V1 m ρ c main_v12 : S50000x1.Idx → EReal) (ix2 r 0) = _
  rw [e12, Cert.LibColumn.shapeCast_a_a1_apply, hostDivf_apply, maximumf_apply, cntScatter_apply]
  rw [broadcastInDim_scalar_apply, constant_apply, Cert.LibRecip.one_f32]
  rw [broadcastInDim_scalar_apply, constant_apply, Ideal.ofBits_zero_f32]
  unfold invDeg deg cnt
  refine congrArg (fun s => Ideal.div 1 (max (0 + s) 1)) (Finset.sum_congr rfl fun ed _ => ?_)
  rw [broadcastInDim_scalar_apply, constant_apply, Cert.LibRecip.one_f32]

/-- The features are as launched. -/
theorem v1_arg0 (c : Dev nD) : (V1 m ρ c main_arg0 : S50000x128.Idx → EReal) = m ((c : Thread nD τ).loc main_arg0) := by
  dsimp only [V1, W1, hostOps0]
  after_results_simp <;> rfl

/-- The first layer's neighbour weights (narrowing is the identity on the extended reals). -/
theorem v25_eq (c : Dev nD) : (V1 m ρ c main_v25 : S128x256.Idx → EReal) = m ((c : Thread nD τ).loc main_arg2) := by
  dsimp only [V1, W1, hostOps0]
  after_results_simp <;> rfl

/-- The first layer's own-row weights. -/
theorem v26_eq (c : Dev nD) : (V1 m ρ c main_v26 : S128x256.Idx → EReal) = m ((c : Thread nD τ).loc main_arg4) := by
  dsimp only [V1, W1, hostOps0]
  after_results_simp <;> rfl

/-- The second layer's neighbour weights. -/
theorem v27_eq (c : Dev nD) : (V1 m ρ c main_v27 : S256x64.Idx → EReal) = m ((c : Thread nD τ).loc main_arg5) := by
  dsimp only [V1, W1, hostOps0]
  after_results_simp <;> rfl

/-- The first layer's bias, carried as one row. -/
theorem v30_eq (c : Dev nD) : (fun j : Fin 256 => (V1 m ρ c main_v30 : S1x256.Idx → EReal) (ix2 0 j))
    = cur1 (m ((c : Thread nD τ).loc main_arg3) : S256.Idx → EReal) := by
  have e : (V1 m ρ c main_v30 : S1x256.Idx → EReal)
      = shapeCast S1x256 (m ((c : Thread nD τ).loc main_arg3) : S256.Idx → EReal) shapeCasts_S256_S1x256 := by
    dsimp only [V1, W1, hostOps0]
    after_results_simp <;> rfl
  funext j
  show (V1 m ρ c main_v30 : S1x256.Idx → EReal) (ix2 0 j) = _
  rw [e, shapeCast_a_1a_apply]
  rfl

end Cert.GraphAE.Ker

end
-- ==== Proof.KHost1.lean ====
/-
  The second arrangement's host side between its two grid regions, read at an entry.

  Between the regions a second stretch of whole-array operations prepares the second region's operands: the projected
  rows the first region produced are narrowed, gathered by the source words, widened, and accumulated by destination
  into an array of zeros; the two remaining weight matrices were narrowed by the first stretch, and neither the first
  region nor this stretch writes them; two biases are recast as one row each.  The source and destination words are
  recomputed from the two flat rows of the edge array that the first stretch produced, and the first region writes
  neither of them, so they are the same two word arrays as before.  On the extended reals narrowing and widening are the identity, so the aggregated array is
  the sum over arriving edges of the source node's projected row; the hidden rows are as the first region left them,
  the reciprocal column is as the first region was entered with it, and the remaining operands are launch arrays.
-/
import proofs.«165848_j85315230367791_2_alg».proof.Proof.KHost0

noncomputable section

namespace Cert.GraphAE.Ker

open Idealize.ShloMosaic Idealize.ShloMosaic.ValueIdx Idealize.ShloMosaic.TcCoe
open Idealize.SL.Sem
open Cert.KernelIdeal Cert.KernelIdeal.Gen

variable (m : (ℓ : Loc nD τ sig) → Buf (Elt Ideal) ℓ) (ρ : Dev nD → PrngReg)

/-! ## This stretch's scatter and gather read at an entry -/

/-- The accumulating scatter of one row of 64 per edge into one row per node. -/
theorem rowScatter64_apply (x : FVec Ideal S50000x64 .f32) (idx : IVec S800000x1 32) (u : FVec Ideal S800000x64 .f32)
    (i : Fin 50000) (k : Fin 64) :
    Host.scatterAdd scatter_S50000x64_S800000x1_S800000x64_1_0_0_1 x idx u (ix2 i k)
      = x (ix2 i k) + ∑ ed : Fin 800000, if (idx (ix2 ed 0)).toInt = (i.val : Int) then u (ix2 ed k) else 0 :=
  Cert.LibSegment.rowScatter_apply _ x idx u i k

/-- The gather of one row of 64 per edge. -/
theorem rowGather64_apply (x : FVec Ideal S50000x64 .bf16) (idx : IVec S800000x1 32) (ed : Fin 800000) (k : Fin 64) :
    Host.gather gather_S50000x64_S800000x1_S800000x64_1_0_n_n_0_1_164 x idx (ix2 ed k) = x (ix2 (srcRow idx ed) k) :=
  Cert.LibRows.row_gather_apply _ (by norm_num) x idx ed k

/-! ## Buffers the first region leaves alone, at its exit -/

/-- Row 0 of the edge array, flat, as the first stretch left it. -/
theorem w2_v1 (c : Dev nD) : (W2 m ρ c (Proc.devRef .tc main_v1) : S800000.Idx → BitVec 32)
    = shapeCast S800000 (extractStridedSlice S1x800000 ![0, 0] (m ((c : Thread nD τ).loc main_arg1) : IVec S2x800000 32)
        slices_S2x800000_S1x800000_0_0) shapeCasts_S1x800000_S800000 :=
  (W2_of_ne m ρ c main_v1 (by decide)).trans (by
    dsimp only [W1, hostOps0]
    after_results_simp <;> rfl)

/-- Row 1 of the edge array, flat, as the first stretch left it. -/
theorem w2_v3 (c : Dev nD) : (W2 m ρ c (Proc.devRef .tc main_v3) : S800000.Idx → BitVec 32)
    = shapeCast S800000 (extractStridedSlice S1x800000 ![1, 0] (m ((c : Thread nD τ).loc main_arg1) : IVec S2x800000 32)
        slices_S2x800000_S1x800000_1_0) shapeCasts_S1x800000_S800000 :=
  (W2_of_ne m ρ c main_v3 (by decide)).trans (by
    dsimp only [W1, hostOps0]
    after_results_simp <;> rfl)

/-! ## What the second stretch leaves, as terms -/

/-- The aggregated projected rows: the accumulating scatter, from zeros, by destination, of the gathered projected rows. -/
theorem e43 (c : Dev nD) : (V3 m ρ c main_v43 : S50000x64.Idx → EReal)
    = Host.scatterAdd scatter_S50000x64_S800000x1_S800000x64_1_0_0_1
        (broadcastInDim S50000x64 ![] bcast_S_S50000x64 (constant (F := Ideal) S_ .f32 0x00000000#32))
        (dstK (m ((c : Thread nD τ).loc main_arg1)))
        (extf .f32 (Host.gather gather_S50000x64_S800000x1_S800000x64_1_0_n_n_0_1_164
          (truncf .bf16 (W2 m ρ c (Proc.devRef .tc main_v31_1) : FVec Ideal S50000x64 .f32) bitsLt_bf16_f32)
          (srcK (m ((c : Thread nD τ).loc main_arg1)))) bitsLt_bf16_f32) := by
  dsimp only [V3, W3, hostOps1]
  after_results_simp
  rw [w2_v1, w2_v3]
  rfl

/-- The aggregated projected rows are the sum over arriving edges of the source node's projected row. -/
theorem v43_eq (c : Dev nD) : cur2 (V3 m ρ c main_v43 : S50000x64.Idx → EReal)
    = agg (srcK (m ((c : Thread nD τ).loc main_arg1))) (dstK (m ((c : Thread nD τ).loc main_arg1)))
        (cur2 (W2 m ρ c (Proc.devRef .tc main_v31_1) : S50000x64.Idx → EReal)) := by
  funext i k
  show (V3 m ρ c main_v43 : S50000x64.Idx → EReal) (ix2 i k) = _
  rw [e43, rowScatter64_apply, broadcastInDim_scalar_apply, constant_apply, Ideal.ofBits_zero_f32]
  unfold agg
  refine congrArg _ (Finset.sum_congr rfl fun ed _ => ?_)
  rw [extf_apply, rowGather64_apply, truncf_apply]
  rfl

/-- The hidden rows are as the first region left them. -/
theorem v3_h (c : Dev nD) : (V3 m ρ c main_v31_0 : S50000x256.Idx → EReal) = W2 m ρ c (Proc.devRef .tc main_v31_0) := by
  dsimp only [V3, W3, hostOps1]
  after_results_simp <;> rfl

/-- The reciprocal column is as the first region was entered with it. -/
theorem v3_inv (c : Dev nD) : (V3 m ρ c main_v12 : S50000x1.Idx → EReal) = V1 m ρ c main_v12 := by
  have h1 : (V3 m ρ c main_v12 : S50000x1.Idx → EReal) = W2 m ρ c (Proc.devRef .tc main_v12) := by
    dsimp only [V3, W3, hostOps1]
    after_results_simp <;> rfl
  exact h1.trans ((W2_arr m ρ c 2).trans (((dat0 (V1 m ρ) c).arrAt_in 2 rfl _).trans (A_eq0 (V1 m ρ) c 2)))

/-- The second layer's own-row weights. -/
theorem v28_eq (c : Dev nD) : (V3 m ρ c main_v28 : S256x64.Idx → EReal) = m ((c : Thread nD τ).loc main_arg7) := by
  have h1 : (V3 m ρ c main_v28 : S256x64.Idx → EReal) = W2 m ρ c (Proc.devRef .tc main_v28) := by
    dsimp only [V3, W3, hostOps1]
    after_results_simp <;> rfl
  exact h1.trans ((W2_of_ne m ρ c main_v28 (by decide)).trans (by
    dsimp only [W1, hostOps0]
    after_results_simp <;> rfl))

/-- The decoder's weights. -/
theorem v29_eq (c : Dev nD) : (V3 m ρ c main_v29 : S64x128.Idx → EReal) = m ((c : Thread nD τ).loc main_arg8) := by
  have h1 : (V3 m ρ c main_v29 : S64x128.Idx → EReal) = W2 m ρ c (Proc.devRef .tc main_v29) := by
    dsimp only [V3, W3, hostOps1]
    after_results_simp <;> rfl
  exact h1.trans ((W2_of_ne m ρ c main_v29 (by decide)).trans (by
    dsimp only [W1, hostOps0]
    after_results_simp <;> rfl))

/-- A launch array that neither the first stretch nor the first region writes is as launched at the region's exit. -/
theorem w2_arg6 (c : Dev nD) : (W2 m ρ c (Proc.devRef .tc main_arg6) : S64.Idx → EReal) = m ((c : Thread nD τ).loc main_arg6) :=
  (W2_of_ne m ρ c main_arg6 (by decide)).trans (by
    dsimp only [W1, hostOps0]
    after_results_simp <;> rfl)

theorem w2_arg9 (c : Dev nD) : (W2 m ρ c (Proc.devRef .tc main_arg9) : S128.Idx → EReal) = m ((c : Thread nD τ).loc main_arg9) :=
  (W2_of_ne m ρ c main_arg9 (by decide)).trans (by
    dsimp only [W1, hostOps0]
    after_results_simp <;> rfl)

/-- The second layer's bias, carried as one row. -/
theorem v44_eq (c : Dev nD) : (fun j : Fin 64 => (V3 m ρ c main_v44 : S1x64.Idx → EReal) (ix2 0 j))
    = cur1 (m ((c : Thread nD τ).loc main_arg6) : S64.Idx → EReal) := by
  have e : (V3 m ρ c main_v44 : S1x64.Idx → EReal)
      = shapeCast S1x64 (W2 m ρ c (Proc.devRef .tc main_arg6) : S64.Idx → EReal) shapeCasts_S64_S1x64 := by
    dsimp only [V3, W3, hostOps1]
    after_results_simp <;> rfl
  funext j
  show (V3 m ρ c main_v44 : S1x64.Idx → EReal) (ix2 0 j) = _
  rw [e, shapeCast_a_1a_apply, w2_arg6]
  rfl

/-- The decoder's bias, carried as one row. -/
theorem v45_eq (c : Dev nD) : (fun j : Fin 128 => (V3 m ρ c main_v45 : S1x128.Idx → EReal) (ix2 0 j))
    = cur1 (m ((c : Thread nD τ).loc main_arg9) : S128.Idx → EReal) := by
  have e : (V3 m ρ c main_v45 : S1x128.Idx → EReal)
      = shapeCast S1x128 (W2 m ρ c (Proc.devRef .tc main_arg9) : S128.Idx → EReal) shapeCasts_S128_S1x128 := by
    dsimp only [V3, W3, hostOps1]
    after_results_simp <;> rfl
  funext j
  show (V3 m ρ c main_v45 : S1x128.Idx → EReal) (ix2 0 j) = _
  rw [e, shapeCast_a_1a_apply, w2_arg9]
  rfl

end Cert.GraphAE.Ker

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.Algebra.lean ====
/-
  The algebra joining the two arrangements of the graph autoencoder.

  First layer.  For a divisor d that is at least one, a * (1 / d) = a / d on every extended real, and addition of
  extended reals is commutative and associative, so (A + B) + b = (A + b) + B: the two first layers agree with no
  finiteness hypothesis at all.

  Second layer.  For real entries h, w and a real divisor d that is not zero,

      (sum over arriving edges e of (sum over k of h(s e, k) * w k)) * (1 / d)
        = sum over k of ((sum over arriving edges e of h(s e, k)) / d) * w k,

  which is the exchange of two finite sums together with the distributive law.  The extended reals do not distribute
  (infinity times (1 + (-1)) against infinity - infinity), which is why the entries are assumed real: the law is proved
  in the real numbers and carried over by pushing the coercion through the finite sums.

  Real values.  The count of arriving edges is a finite sum of zeros and ones, hence real; the clamped degree is real
  and at least one; a quotient of a real by a real that is at least one is real; so every entry of the first layer of
  real inputs is real.
-/
import Mathlib.Tactic.Ring
import Mathlib.Tactic.Choose
import Mathlib.Algebra.BigOperators.Ring.Finset
import proofs.«165848_j85315230367791_2_alg».proof.Proof.Spec
import proofs.«165848_j85315230367791_2_alg».proof.Proof.LibRecip
import proofs.«165848_j85315230367791_2_alg».proof.Proof.LibRealValued

noncomputable section

namespace Cert.GraphAE

open Idealize.ShloMosaic Idealize.ShloMosaic.ValueIdx
open Cert.RealValued

/-! ## General facts -/

/-- A quotient of a real entry by a real entry that is at least one is real. -/
theorem isReal_div {a d : EReal} (ha : IsReal a) (hd : IsReal d) (h1 : 1 ≤ d) : IsReal (Ideal.div a d) := by
  obtain ⟨r, hr0, rfl⟩ := hd.coe_ne_zero_of_one_le h1
  obtain ⟨s, rfl⟩ := ha
  rw [Ideal.div_coe hr0]
  exact (isReal_coe s).mul (isReal_coe _)

/-- The exchange law in the real numbers: a masked sum over edges of inner products, times a constant, is the inner
    product of the masked sums times that constant. -/
theorem masked_sum_mul_real {E K : Type} [Fintype E] [Fintype K] (p : E → Prop) [DecidablePred p]
    (g : E → K → ℝ) (w : K → ℝ) (c : ℝ) :
    (∑ e, if p e then ∑ k, g e k * w k else 0) * c = ∑ k, (∑ e, if p e then g e k else 0) * c * w k := by
  simp only [Finset.sum_mul]
  conv_rhs => rw [Finset.sum_comm]
  refine Finset.sum_congr rfl fun e _ => ?_
  by_cases hp : p e
  · simp only [if_pos hp, Finset.sum_mul]
    exact Finset.sum_congr rfl fun k _ => by ring
  · simp [if_neg hp]

/-- The exchange law on the extended reals, for real entries and a real nonzero divisor: aggregating the projected rows
    and multiplying by the reciprocal is projecting the quotients of the aggregated rows. -/
theorem masked_sum_mul_recip {E K : Type} [Fintype E] [Fintype K] (p : E → Prop) [DecidablePred p]
    (g : E → K → ℝ) (w : K → ℝ) (d : ℝ) (hd : d ≠ 0) :
    (0 + ∑ e, if p e then ∑ k, ((g e k : ℝ) : EReal) * ((w k : ℝ) : EReal) else 0) * Ideal.div 1 (d : EReal)
      = ∑ k, Ideal.div (0 + ∑ e, if p e then ((g e k : ℝ) : EReal) else 0) (d : EReal) * ((w k : ℝ) : EReal) := by
  have hL : (0 + ∑ e, if p e then ∑ k, ((g e k : ℝ) : EReal) * ((w k : ℝ) : EReal) else 0)
      = ((∑ e, if p e then ∑ k, g e k * w k else 0 : ℝ) : EReal) := by
    rw [zero_add, coe_sum]
    refine Finset.sum_congr rfl fun e _ => ?_
    by_cases hp : p e
    · rw [if_pos hp, if_pos hp, coe_sum]
      exact Finset.sum_congr rfl fun k _ => (EReal.coe_mul _ _).symm
    · rw [if_neg hp, if_neg hp, EReal.coe_zero]
  have hR : ∀ k, (0 + ∑ e, if p e then ((g e k : ℝ) : EReal) else 0)
      = ((∑ e, if p e then g e k else 0 : ℝ) : EReal) := by
    intro k
    rw [zero_add, coe_sum]
    refine Finset.sum_congr rfl fun e _ => ?_
    by_cases hp : p e
    · rw [if_pos hp, if_pos hp]
    · rw [if_neg hp, if_neg hp, EReal.coe_zero]
  rw [hL, Ideal.div_coe hd, one_mul, ← EReal.coe_mul]
  simp only [hR, Ideal.div_coe hd, ← EReal.coe_mul]
  rw [← coe_sum]
  exact congrArg _ (masked_sum_mul_real p g w (1 / d))

variable (src dst : IVec ⟨2, ![800000, 1]⟩ 32)

/-! ## The degree -/

/-- The clamped degree is at least one. -/
theorem one_le_deg (i : Fin 50000) : 1 ≤ deg dst i := le_max_right _ _

/-- The count of arriving edges is real. -/
theorem cnt_isReal (i : Fin 50000) : IsReal (cnt dst i) :=
  isReal_zero.add (isReal_sum _ _ fun _ _ => IsReal.ite isReal_one isReal_zero)

/-- The clamped degree is real. -/
theorem deg_isReal (i : Fin 50000) : IsReal (deg dst i) := (cnt_isReal dst i).max isReal_one

/-- Aggregating real rows gives real rows. -/
theorem agg_isReal {C : ℕ} (X : Fin 50000 → Fin C → EReal) (hX : ∀ i c, IsReal (X i c)) (i : Fin 50000) (c : Fin C) :
    IsReal (agg src dst X i c) :=
  isReal_zero.add (isReal_sum _ _ fun _ _ => IsReal.ite (hX _ _) isReal_zero)

/-! ## First layer -/

/-- The two first layers agree on all extended reals. -/
theorem hidKer_eq (x : Fin 50000 → Fin 128 → EReal) (W1l : Fin 128 → Fin 256 → EReal) (b1 : Fin 256 → EReal)
    (W1r : Fin 128 → Fin 256 → EReal) : hidKer src dst x W1l b1 W1r = hidRef src dst x W1l b1 W1r := by
  funext i j
  have hk : ∀ k, agg src dst x i k * Ideal.div 1 (deg dst i) = Ideal.div (agg src dst x i k) (deg dst i) :=
    fun k => Cert.LibRecip.mul_recip _ _ (one_le_deg dst i)
  unfold hidKer hidRef
  simp only [hk]
  rw [add_right_comm]

/-- The first layer of real inputs is real. -/
theorem hidRef_isReal (x : Fin 50000 → Fin 128 → EReal) (W1l : Fin 128 → Fin 256 → EReal) (b1 : Fin 256 → EReal)
    (W1r : Fin 128 → Fin 256 → EReal) (hx : ∀ i k, IsReal (x i k)) (hl : ∀ k j, IsReal (W1l k j))
    (hb : ∀ j, IsReal (b1 j)) (hr : ∀ k j, IsReal (W1r k j)) :
    ∀ i j, IsReal (hidRef src dst x W1l b1 W1r i j) := by
  intro i j
  unfold hidRef
  refine IsReal.max (((isReal_sum _ _ fun k _ => ?_).add (hb j)).add (isReal_sum _ _ fun k _ => ?_)) isReal_zero
  · exact (isReal_div (agg_isReal src dst x hx i k) (deg_isReal dst i) (one_le_deg dst i)).mul (hl k j)
  · exact (hx i k).mul (hr k j)

/-! ## Second layer -/

/-- For real hidden rows and real weights, aggregating the projected rows and multiplying by the reciprocal of the
    degree is dividing the aggregated rows by the degree and then projecting. -/
theorem latKer_eq (h : Fin 50000 → Fin 256 → EReal) (W2l : Fin 256 → Fin 64 → EReal) (b2 : Fin 64 → EReal)
    (W2r : Fin 256 → Fin 64 → EReal) (hh : ∀ i k, IsReal (h i k)) (hW : ∀ k j, IsReal (W2l k j)) :
    latKer src dst h (projKer h W2l) b2 W2r = latRef src dst h W2l b2 W2r := by
  funext i j
  have hh' : ∀ i k, ∃ r : ℝ, h i k = (r : EReal) := hh
  have hW' : ∀ k j, ∃ r : ℝ, W2l k j = (r : EReal) := hW
  choose hr hhr using hh'
  choose wr hwr using hW'
  obtain ⟨d, hd0, hd⟩ := (deg_isReal dst i).coe_ne_zero_of_one_le (one_le_deg dst i)
  have key : agg src dst (projKer h W2l) i j * Ideal.div 1 (deg dst i)
      = ∑ k : Fin 256, Ideal.div (agg src dst h i k) (deg dst i) * W2l k j := by
    unfold agg projKer
    rw [hd]
    simp only [hhr, hwr]
    exact masked_sum_mul_recip (fun e : Fin 800000 => (dst (ix2 e 0)).toInt = (i.val : Int))
      (fun e k => hr (srcRow src e) k) (fun k => wr k j) d hd0
  unfold latKer latRef
  rw [key]

end Cert.GraphAE

end
-- ==== Proof.Finite.lean ====
/-
  Finiteness of the inputs, read back from the precondition.

  The precondition is a conjunction, over the nine arrays of floats, of "every entry x has |x| < +infinity".  Each
  conjunct is a reduction by "and", from the word 1, of the array of comparison bits; the whole is the "and" of the nine
  results and is assumed to be 1.  A conjunction of bits that is 1 has every bit 1; a reduction by "and" over all axes
  that is 1 met the bit 1 at every index; and on the extended reals |x| = max x (-x) < +infinity (the pattern
  0x7F800000 denotes +infinity) excludes both infinities: |-infinity| = |+infinity| = +infinity.  What is left is a real
  number.
-/
import Idealize.ShloMosaic.Lib.ReduceAll
import Idealize.ShloMosaic.Lib.IdealHost
import Idealize.ShloMosaic.Lib.ValueIdx
import proofs.«165848_j85315230367791_2_alg».proof.Pre_finite_inputs
import proofs.«165848_j85315230367791_2_alg».proof.Proof.Gen.Pre_finite_inputs
import proofs.«165848_j85315230367791_2_alg».proof.Proof.LibRealValued

noncomputable section

namespace Cert.GraphAE

open Idealize.ShloMosaic Idealize.ShloMosaic.ValueIdx
open Cert.RealValued
open Cert.Pre_finite_inputs

/-- The shape of a scalar has one index. -/
instance subsingleton_scalar_idx : Subsingleton S_.Idx := ⟨fun _ _ => funext fun d => d.elim0⟩

/-- The single-precision pattern 0x7F800000 denotes +infinity. -/
theorem inf_f32 : Ideal.ofBits .f32 0x7F800000#32 = (⊤ : EReal) := by simp [Ideal.ofBits, Ideal.ieee]

/-- An extended real whose absolute value is below +infinity is a real number. -/
theorem isReal_of_abs_lt_top (a : EReal) (h : max a (-a) < ⊤) : IsReal a := by
  induction a using EReal.rec with
  | bot => simp at h
  | coe r => exact ⟨r, rfl⟩
  | top => simp at h

/-- One entry: the comparison bit of |a| < +infinity being 1 makes a real. -/
theorem isReal_of_cmp (a : Ideal .f32)
    (h : FloatOps.cmpf .olt (FloatOps.hostAbsf a) (Ideal.ofBits .f32 0x7F800000#32) = 1#1) : IsReal a := by
  have h' : Ideal.cmp .olt (max (a : EReal) (-(a : EReal))) (Ideal.ofBits .f32 0x7F800000#32) = 1#1 := h
  rw [inf_f32] at h'
  unfold Ideal.cmp at h'
  refine isReal_of_abs_lt_top a ?_
  by_contra hn
  simp [hn] at h'

/-- One array: the reduction by "and" over all axes of the bits |x i| < +infinity being 1 makes every entry real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ix0 = 1#1) :
    ∀ i, IsReal (x i) := by
  intro i
  have hi := Host.reduce_andi_all _ init hr hu ix0 e i
  rw [cmpf_apply, broadcastInDim_scalar_apply, constant_apply] at hi
  exact isReal_of_cmp (x i) hi

/-- A conjunction of two scalar bits that is 1 has both bits 1. -/
theorem andi_scalar (a b : IVec S_ 1) (h : andi a b ix0 = 1#1) : a ix0 = 1#1 ∧ b ix0 = 1#1 :=
  IntOp.andi_eq_one.1 h

/-- Under the precondition the node features, the first layer's two weight matrices and bias, and the second layer's
    neighbour weights are real. -/
theorem real_of_pre (x0 : FVec Ideal S50000x128 .f32) (x1 : IVec S2x800000 32) (x2 : FVec Ideal S128x256 .f32)
    (x3 : FVec Ideal S256 .f32) (x4 : FVec Ideal S128x256 .f32) (x5 : FVec Ideal S256x64 .f32)
    (x6 : FVec Ideal S64 .f32) (x7 : FVec Ideal S256x64 .f32) (x8 : FVec Ideal S64x128 .f32)
    (x9 : FVec Ideal S128 .f32)
    (h : Cert.Pre_finite_inputs.fn (F := Ideal) x0 x1 x2 x3 x4 x5 x6 x7 x8 x9 = fun _ => 1#1) :
    (∀ i, IsReal (x0 i)) ∧ (∀ i, IsReal (x2 i)) ∧ (∀ i, IsReal (x3 i)) ∧ (∀ i, IsReal (x4 i))
      ∧ (∀ i, IsReal (x5 i)) := by
  have h0 := congrFun h ix0
  dsimp only [fn, fn_part1, fn_part2] at h0
  obtain ⟨h38, -⟩ := andi_scalar _ _ h0
  obtain ⟨h33, -⟩ := andi_scalar _ _ h38
  obtain ⟨h28, -⟩ := andi_scalar _ _ h33
  obtain ⟨h23, -⟩ := andi_scalar _ _ h28
  obtain ⟨h18, h22⟩ := andi_scalar _ _ h23
  obtain ⟨h13, h17⟩ := andi_scalar _ _ h18
  obtain ⟨h8, h12⟩ := andi_scalar _ _ h13
  obtain ⟨h3, h7⟩ := andi_scalar _ _ h8
  exact ⟨isReal_of_all x0 _ _ _ _ h3, isReal_of_all x2 _ _ _ _ h7, isReal_of_all x3 _ _ _ _ h12,
    isReal_of_all x4 _ _ _ _ h17, isReal_of_all x5 _ _ _ _ h22⟩

end Cert.GraphAE

end
-- ==== Proof.KVal.lean ====
/-
  The two result arrays of the second arrangement as functions of the launch arrays, entry by entry.
  The last boundary holds, in each result buffer, what the second region's 25 write-backs leave: the latent rows
  and the decoded rows over what that region found. What it found is the aggregate of the projected rows, the
  hidden rows, the reciprocal degrees and the launch weights; the projected and hidden rows are what the first
  region left over what IT found: the aggregated features, the features, the reciprocal degrees, the weights.
  Put together this is the second arrangement of the network; when the features and the first four weight
  arrays hold real numbers it equals the first arrangement (the hidden rows are then real, and a real factor
  moves across the finite sums).
-/
import proofs.«165848_j85315230367791_2_alg».proof.Proof.KBlocks1
import proofs.«165848_j85315230367791_2_alg».proof.Proof.KHost1
import proofs.«165848_j85315230367791_2_alg».proof.Proof.Algebra
import proofs.«165848_j85315230367791_2_alg».proof.Proof.Finite

noncomputable section

namespace Cert.GraphAE.Ker

open Cert.KernelIdeal Cert.KernelIdeal.Gen Cert.GraphAE Cert.RealValued
open Idealize.ShloMosaic Idealize.ShloMosaic.TcCoe Idealize.ShloMosaic.ValueIdx Idealize.SL.Sem

/-- An array given on index pairs is determined by its readings at coordinates. -/
theorem uncur2 {A B : ℕ} {α : Type} (X : (⟨2, ![A, B]⟩ : Shape).Idx → α) : X = fun idx => cur2 X (idx 0) (idx 1) :=
  funext fun idx => congrArg X (eq_ix2 idx)

variable (m : (ℓ : Loc nD τ sig) → Buf (Elt Ideal) ℓ) (ρ : Dev nD → PrngReg)

/-- The hidden rows in the second arrangement, over the launch arrays. -/
abbrev hK (c : Dev nD) : Fin 50000 → Fin 256 → EReal :=
  hidKer (srcK (m ((c : Thread nD τ).loc main_arg1))) (dstK (m ((c : Thread nD τ).loc main_arg1))) (cur2 ((m ((c : Thread nD τ).loc main_arg0)) : S50000x128.Idx → EReal))
    (cur2 ((m ((c : Thread nD τ).loc main_arg2)) : S128x256.Idx → EReal)) (cur1 ((m ((c : Thread nD τ).loc main_arg3)) : S256.Idx → EReal)) (cur2 ((m ((c : Thread nD τ).loc main_arg4)) : S128x256.Idx → EReal))

/-- What the first region leaves in the hidden array. -/
theorem hid_W2 (c : Dev nD) : cur2 (W2 m ρ c (Proc.devRef .tc main_v31_0) : S50000x256.Idx → EReal) = hK m c := by
  have h : (W2 m ρ c (Proc.devRef .tc main_v31_0) : S50000x256.Idx → EReal)
      = Hof (V1 m ρ c main_v24) (V1 m ρ c main_arg0) (V1 m ρ c main_v12) (V1 m ρ c main_v25) (V1 m ρ c main_v26) (V1 m ρ c main_v30) :=
    (W2_arr m ρ c 7).trans (hid_final (V1 m ρ) c)
  rw [h]
  show hidRows (cur2 (V1 m ρ c main_v24 : S50000x128.Idx → EReal)) (cur2 (V1 m ρ c main_arg0 : S50000x128.Idx → EReal))
      (fun r : Fin 50000 => (V1 m ρ c main_v12 : S50000x1.Idx → EReal) (ix2 r 0)) (cur2 (V1 m ρ c main_v25 : S128x256.Idx → EReal))
      (cur2 (V1 m ρ c main_v26 : S128x256.Idx → EReal)) (fun j : Fin 256 => (V1 m ρ c main_v30 : S1x256.Idx → EReal) (ix2 0 j)) = _
  rw [v24_eq, v1_arg0, v12_eq, v25_eq, v26_eq, v30_eq]
  rfl

/-- What the first region leaves in the projected array. -/
theorem proj_W2 (c : Dev nD) : cur2 (W2 m ρ c (Proc.devRef .tc main_v31_1) : S50000x64.Idx → EReal)
    = projKer (hK m c) (cur2 ((m ((c : Thread nD τ).loc main_arg5)) : S256x64.Idx → EReal)) := by
  have h : (W2 m ρ c (Proc.devRef .tc main_v31_1) : S50000x64.Idx → EReal)
      = Pof (V1 m ρ c main_v24) (V1 m ρ c main_arg0) (V1 m ρ c main_v12) (V1 m ρ c main_v25) (V1 m ρ c main_v26) (V1 m ρ c main_v30)
          (V1 m ρ c main_v27) :=
    (W2_arr m ρ c 8).trans (proj_final (V1 m ρ) c)
  rw [h]
  show projRows (hidRows (cur2 (V1 m ρ c main_v24 : S50000x128.Idx → EReal)) (cur2 (V1 m ρ c main_arg0 : S50000x128.Idx → EReal))
      (fun r : Fin 50000 => (V1 m ρ c main_v12 : S50000x1.Idx → EReal) (ix2 r 0)) (cur2 (V1 m ρ c main_v25 : S128x256.Idx → EReal))
      (cur2 (V1 m ρ c main_v26 : S128x256.Idx → EReal)) (fun j : Fin 256 => (V1 m ρ c main_v30 : S1x256.Idx → EReal) (ix2 0 j)))
      (cur2 (V1 m ρ c main_v27 : S256x64.Idx → EReal)) = _
  rw [v24_eq, v1_arg0, v12_eq, v25_eq, v26_eq, v30_eq, v27_eq]
  rfl

/-- The latent rows in the second arrangement, over the launch arrays. -/
abbrev zK (c : Dev nD) : Fin 50000 → Fin 64 → EReal :=
  latKer (srcK (m ((c : Thread nD τ).loc main_arg1))) (dstK (m ((c : Thread nD τ).loc main_arg1))) (hK m c) (projKer (hK m c) (cur2 ((m ((c : Thread nD τ).loc main_arg5)) : S256x64.Idx → EReal)))
    (cur1 ((m ((c : Thread nD τ).loc main_arg6)) : S64.Idx → EReal)) (cur2 ((m ((c : Thread nD τ).loc main_arg7)) : S256x64.Idx → EReal))

/-- The latent result at the last boundary. -/
theorem lat_W4 (c : Dev nD) : cur2 (W4 m ρ c (Proc.devRef .tc main_v46_0) : S50000x64.Idx → EReal) = zK m c := by
  have h : (W4 m ρ c (Proc.devRef .tc main_v46_0) : S50000x64.Idx → EReal)
      = Zof (V3 m ρ c main_v43) (V3 m ρ c main_v31_0) (V3 m ρ c main_v12) (V3 m ρ c main_v28) (V3 m ρ c main_v44) :=
    (W4_arr m ρ c 7).trans (lat_final (V3 m ρ) c)
  rw [h]
  show latRows (cur2 (V3 m ρ c main_v43 : S50000x64.Idx → EReal)) (cur2 (V3 m ρ c main_v31_0 : S50000x256.Idx → EReal))
      (fun r : Fin 50000 => (V3 m ρ c main_v12 : S50000x1.Idx → EReal) (ix2 r 0))
      (fun j : Fin 64 => (V3 m ρ c main_v44 : S1x64.Idx → EReal) (ix2 0 j)) (cur2 (V3 m ρ c main_v28 : S256x64.Idx → EReal)) = _
  rw [v43_eq, v3_h, v3_inv, v28_eq, v44_eq, proj_W2, hid_W2, v12_eq]
  rfl

/-- The decoded result at the last boundary. -/
theorem dec_W4 (c : Dev nD) : cur2 (W4 m ρ c (Proc.devRef .tc main_v46_1) : S50000x128.Idx → EReal)
    = dec (zK m c) (cur2 ((m ((c : Thread nD τ).loc main_arg8)) : S64x128.Idx → EReal)) (cur1 ((m ((c : Thread nD τ).loc main_arg9)) : S128.Idx → EReal)) := by
  have h : (W4 m ρ c (Proc.devRef .tc main_v46_1) : S50000x128.Idx → EReal)
      = Xof (V3 m ρ c main_v43) (V3 m ρ c main_v31_0) (V3 m ρ c main_v12) (V3 m ρ c main_v28) (V3 m ρ c main_v44)
          (V3 m ρ c main_v29) (V3 m ρ c main_v45) :=
    (W4_arr m ρ c 8).trans (dec_final (V3 m ρ) c)
  rw [h]
  show decRows (latRows (cur2 (V3 m ρ c main_v43 : S50000x64.Idx → EReal)) (cur2 (V3 m ρ c main_v31_0 : S50000x256.Idx → EReal))
      (fun r : Fin 50000 => (V3 m ρ c main_v12 : S50000x1.Idx → EReal) (ix2 r 0))
      (fun j : Fin 64 => (V3 m ρ c main_v44 : S1x64.Idx → EReal) (ix2 0 j)) (cur2 (V3 m ρ c main_v28 : S256x64.Idx → EReal)))
      (cur2 (V3 m ρ c main_v29 : S64x128.Idx → EReal)) (fun j : Fin 128 => (V3 m ρ c main_v45 : S1x128.Idx → EReal) (ix2 0 j)) = _
  rw [v43_eq, v3_h, v3_inv, v28_eq, v44_eq, v29_eq, v45_eq, proj_W2, hid_W2, v12_eq]
  rfl

/-! ## With real inputs the second arrangement is the first -/

/-- The hidden rows in the first arrangement, over the launch arrays. -/
abbrev hR (c : Dev nD) : Fin 50000 → Fin 256 → EReal :=
  hidRef (srcK (m ((c : Thread nD τ).loc main_arg1))) (dstK (m ((c : Thread nD τ).loc main_arg1))) (cur2 ((m ((c : Thread nD τ).loc main_arg0)) : S50000x128.Idx → EReal))
    (cur2 ((m ((c : Thread nD τ).loc main_arg2)) : S128x256.Idx → EReal)) (cur1 ((m ((c : Thread nD τ).loc main_arg3)) : S256.Idx → EReal)) (cur2 ((m ((c : Thread nD τ).loc main_arg4)) : S128x256.Idx → EReal))

/-- The latent rows in the first arrangement, over the launch arrays. -/
abbrev zR (c : Dev nD) : Fin 50000 → Fin 64 → EReal :=
  latRef (srcK (m ((c : Thread nD τ).loc main_arg1))) (dstK (m ((c : Thread nD τ).loc main_arg1))) (hR m c) (cur2 ((m ((c : Thread nD τ).loc main_arg5)) : S256x64.Idx → EReal))
    (cur1 ((m ((c : Thread nD τ).loc main_arg6)) : S64.Idx → EReal)) (cur2 ((m ((c : Thread nD τ).loc main_arg7)) : S256x64.Idx → EReal))

theorem zK_eq_zR (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = fun _ => 1#1) : zK m c = zR m c := by
  obtain ⟨r0, r2, r3, r4, r5⟩ := real_of_pre _ _ _ _ _ _ _ _ _ _ hpre
  have hh : hK m c = hR m c := hidKer_eq _ _ _ _ _ _
  have hreal : ∀ i k, IsReal (hR m c i k) :=
    hidRef_isReal _ _ _ _ _ _ (fun i k => r0 (ix2 i k)) (fun k j => r2 (ix2 k j)) (fun j => r3 (ix1 j)) (fun k j => r4 (ix2 k j))
  show latKer _ _ (hK m c) (projKer (hK m c) _) _ _ = latRef _ _ (hR m c) _ _ _
  rw [hh]
  exact latKer_eq _ _ _ _ _ _ hreal (fun k j => r5 (ix2 k j))

/-- The latent result array, for real inputs, in the first arrangement. -/
theorem out0 (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = fun _ => 1#1) :
    (W4 m ρ c (Proc.devRef .tc main_v46_0) : S50000x64.Idx → EReal) = fun idx => zR m c (idx 0) (idx 1) := by
  refine (uncur2 _).trans ?_
  rw [lat_W4, zK_eq_zR m c hpre]
  rfl

/-- The decoded result array, for real inputs, in the first arrangement. -/
theorem out1 (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = fun _ => 1#1) :
    (W4 m ρ c (Proc.devRef .tc main_v46_1) : S50000x128.Idx → EReal)
      = fun idx => dec (zR m c) (cur2 ((m ((c : Thread nD τ).loc main_arg8)) : S64x128.Idx → EReal)) (cur1 ((m ((c : Thread nD τ).loc main_arg9)) : S128.Idx → EReal)) (idx 0) (idx 1) := by
  refine (uncur2 _).trans ?_
  rw [dec_W4, zK_eq_zR m c hpre]
  rfl

end Cert.GraphAE.Ker

end
-- ==== Proof.RefRead.lean ====
/-
  The reference program read at an entry.

  The reference is a graph autoencoder over 50000 nodes and 800000 edges.  Its source words are row 0 of the edge
  array, a negative word wrapped by adding 50000; its destination words are row 1.  A layer gathers the source
  nodes' rows, accumulates them per destination node (an edge whose destination word reads as no node is dropped),
  divides the accumulated row by the in-degree clamped below at one, multiplies by a weight matrix, adds a bias and
  the node's own row times a second weight matrix; a rectifier follows the first layer, a linear decoder the second.
  Read entry by entry this is the dividing-first arrangement of the specification: the hidden layer is `hidRef`, the
  latent output `latRef` of it, the decoded output `dec` of that.
-/
import proofs.«165848_j85315230367791_2_alg».proof.Proof.Gen.ReferenceIdeal.Read
import proofs.«165848_j85315230367791_2_alg».proof.Proof.Spec
import proofs.«165848_j85315230367791_2_alg».proof.Proof.LibRows
import proofs.«165848_j85315230367791_2_alg».proof.Proof.LibSegment
import proofs.«165848_j85315230367791_2_alg».proof.Proof.LibFlatScatter
import proofs.«165848_j85315230367791_2_alg».proof.Proof.LibProduct
import proofs.«165848_j85315230367791_2_alg».proof.Proof.LibRecip
import Idealize.ShloMosaic.Lib.IdealHost

noncomputable section

namespace Cert.GraphAE.Ref

open Cert.ReferenceIdeal Cert.ReferenceIdeal.Gen Cert.ReferenceIdeal.Read Idealize.ShloMosaic Idealize.ShloMosaic.ValueIdx

variable (x0 : FVec Ideal S50000x128 .f32) (x1 : IVec S2x800000 32) (x2 : FVec Ideal S128x256 .f32) (x3 : FVec Ideal S256 .f32)
  (x4 : FVec Ideal S128x256 .f32) (x5 : FVec Ideal S256x64 .f32) (x6 : FVec Ideal S64 .f32) (x7 : FVec Ideal S256x64 .f32)
  (x8 : FVec Ideal S64x128 .f32) (x9 : FVec Ideal S128 .f32)

/-! ## The index arrays

The source words are row 0 of the edge array, a negative word wrapped by adding the node count (the stage
`val_main_v9`); the destination words are row 1 (the stage `val_main_v12`). -/

/-- The second layer computes the source words again, by the same operations. -/
theorem v35_eq : val_main_v35 (F := Ideal) x1 = val_main_v9 (F := Ideal) x1 := rfl
/-- Each accumulation spells the destination words again, by the same operation. -/
theorem v16_eq : val_main_v16 (F := Ideal) x1 = val_main_v12 (F := Ideal) x1 := rfl
theorem v38_eq : val_main_v38 (F := Ideal) x1 = val_main_v12 (F := Ideal) x1 := rfl
theorem v42_eq : val_main_v42 (F := Ideal) x1 = val_main_v12 (F := Ideal) x1 := rfl

/-! ## The constants -/

theorem v11_apply (j : S50000x128.Idx) : val_main_v11 (F := Ideal) j = 0 := by
  rw [val_main_v11_apply, val_main_cst_apply]; exact Ideal.ofBits_zero_f32
theorem v37_apply (j : S50000x256.Idx) : val_main_v37 (F := Ideal) j = 0 := by
  rw [val_main_v37_apply, val_main_cst_6_apply]; exact Ideal.ofBits_zero_f32
theorem v15_apply (j : S50000.Idx) : val_main_v15 (F := Ideal) j = 0 := by
  rw [val_main_v15_apply, val_main_cst_2_apply]; exact Ideal.ofBits_zero_f32
theorem v41_apply (j : S50000.Idx) : val_main_v41 (F := Ideal) j = 0 := by
  rw [val_main_v41_apply, val_main_cst_8_apply]; exact Ideal.ofBits_zero_f32
theorem v14_apply (j : S800000.Idx) : val_main_v14 (F := Ideal) j = 1 := by
  rw [val_main_v14_apply, val_main_cst_1_apply]; exact Cert.LibRecip.one_f32
theorem v40_apply (j : S800000.Idx) : val_main_v40 (F := Ideal) j = 1 := by
  rw [val_main_v40_apply, val_main_cst_7_apply]; exact Cert.LibRecip.one_f32
theorem v18_apply (j : S50000.Idx) : val_main_v18 (F := Ideal) j = 1 := by
  rw [val_main_v18_apply, val_main_cst_3_apply]; exact Cert.LibRecip.one_f32
theorem v44_apply (j : S50000.Idx) : val_main_v44 (F := Ideal) j = 1 := by
  rw [val_main_v44_apply, val_main_cst_9_apply]; exact Cert.LibRecip.one_f32
theorem relu0_apply (j : S50000x256.Idx) : val_main_call0_v0 (F := Ideal) j = 0 := by
  rw [val_main_call0_v0_apply, val_main_call0_cst_apply]; exact Ideal.ofBits_zero_f32

/-! ## Counting the arriving edges -/

/-- The record of the flat accumulation is the literal record with these axis lists. -/
theorem flatRec_eq : scatter_S50000_S800000x1_S800000_n_0_0_1
    = (⟨[], [0], [0], 1, Facts₀.scatter_S50000_S800000x1_S800000_n_0_0_1_wf⟩ : ScatterDims ⟨1, ![50000]⟩ ⟨2, ![800000, 1]⟩ ⟨1, ![800000]⟩) := rfl

theorem v17_eq : val_main_v17 (F := Ideal) x1
    = Ideal.hostScatterAdd scatter_S50000_S800000x1_S800000_n_0_0_1 (val_main_v15 (F := Ideal)) (val_main_v12 (F := Ideal) x1) (val_main_v14 (F := Ideal)) := rfl

/-- The first layer's count of the edges arriving at a node. -/
theorem v17_apply (i : Fin 50000) : val_main_v17 (F := Ideal) x1 (ix1 i) = cnt (val_main_v12 (F := Ideal) x1) i := by
  rw [v17_eq, flatRec_eq, Cert.LibFlatScatter.flatScatter_apply, v15_apply, cnt]
  refine congrArg (fun s => (0 : EReal) + s) (Finset.sum_congr rfl fun e _ => ?_)
  rw [v14_apply]

/-- The first layer's in-degree clamped below at one. -/
theorem v19_apply (i : Fin 50000) : val_main_v19 (F := Ideal) x1 (ix1 i) = deg (val_main_v12 (F := Ideal) x1) i := by
  rw [val_main_v19_apply, v17_apply, v18_apply, Ideal.maximumf_def, deg]

/-- The clamped in-degree spread along a row of 128 entries. -/
theorem v21_apply (i : Fin 50000) (k : Fin 128) : val_main_v21 (F := Ideal) x1 (ix2 i k) = deg (val_main_v12 (F := Ideal) x1) i := by
  rw [val_main_v21_apply, val_main_v20_apply,
    show idx_main_v20 (idx_main_v21 (ix2 i k)) = ix1 i from funext fun a => Fin.ext (by match a with | ⟨0, _⟩ => rfl),
    v19_apply]

/-! ## The first layer -/

theorem gather128_eq : gather_S50000x128_S800000x1_S800000x128_1_0_n_n_0_1_1128
    = Cert.LibRows.rowDims (N := 50000) (E := 800000) (C := 128) Facts₀.gather_S50000x128_S800000x1_S800000x128_1_0_n_n_0_1_1128_wf := rfl

theorem v10_eq : val_main_v10 (F := Ideal) x0 x1
    = Host.gather gather_S50000x128_S800000x1_S800000x128_1_0_n_n_0_1_1128 x0 (val_main_v9 (F := Ideal) x1) := rfl

/-- The first gather: the source node's row. -/
theorem v10_apply (e : Fin 800000) (c : Fin 128) :
    val_main_v10 (F := Ideal) x0 x1 (ix2 e c) = cur2 x0 (srcRow (val_main_v9 (F := Ideal) x1) e) c := by
  rw [v10_eq, gather128_eq, Cert.LibRows.row_gather_apply _ (by norm_num)]
  rfl

theorem scatter128_eq : scatter_S50000x128_S800000x1_S800000x128_1_0_0_1
    = Cert.LibRows.scatDims (N := 50000) (E := 800000) (C := 128) Facts₀.scatter_S50000x128_S800000x1_S800000x128_1_0_0_1_wf := rfl

theorem v13_eq : val_main_v13 (F := Ideal) x0 x1
    = Ideal.hostScatterAdd scatter_S50000x128_S800000x1_S800000x128_1_0_0_1 (val_main_v11 (F := Ideal)) (val_main_v12 (F := Ideal) x1) (val_main_v10 (F := Ideal) x0 x1) := rfl

/-- The first accumulation: the sum of the source nodes' rows over the arriving edges. -/
theorem v13_apply (i : Fin 50000) (k : Fin 128) :
    val_main_v13 (F := Ideal) x0 x1 (ix2 i k) = agg (val_main_v9 (F := Ideal) x1) (val_main_v12 (F := Ideal) x1) (cur2 x0) i k := by
  rw [v13_eq, scatter128_eq, Cert.LibSegment.rowScatter_apply, v11_apply, agg]
  refine congrArg (fun s => (0 : EReal) + s) (Finset.sum_congr rfl fun e _ => ?_)
  rw [v10_apply]

/-- The mean of the neighbours' rows. -/
theorem v22_apply (i : Fin 50000) (k : Fin 128) :
    val_main_v22 (F := Ideal) x0 x1 (ix2 i k) = Ideal.div (agg (val_main_v9 (F := Ideal) x1) (val_main_v12 (F := Ideal) x1) (cur2 x0) i k) (deg (val_main_v12 (F := Ideal) x1) i) := by
  rw [val_main_v22_apply, v13_apply, v21_apply, Ideal.hostDivf_def]

theorem v23_eq : val_main_v23 (F := Ideal) x0 x1 x2
    = Host.dotGeneral (φ₁ := .f32) dot_S50000x128_S128x256_S50000x256_1_0_0_1_n_n none (val_main_v22 (F := Ideal) x0 x1) x2 := rfl

/-- The mean times the first weight matrix. -/
theorem v23_apply (i : Fin 50000) (j : Fin 256) :
    val_main_v23 (F := Ideal) x0 x1 x2 (ix2 i j)
      = ∑ k : Fin 128, Ideal.div (agg (val_main_v9 (F := Ideal) x1) (val_main_v12 (F := Ideal) x1) (cur2 x0) i k) (deg (val_main_v12 (F := Ideal) x1) i) * cur2 x2 k j := by
  rw [v23_eq, Cert.LibProduct.dotGeneral_apply _ rfl rfl rfl rfl rfl rfl]
  refine Finset.sum_congr rfl fun k _ => ?_
  exact congrArg (fun t => t * x2 (ix2 k j)) (v22_apply x0 x1 i k)

/-- The first bias spread along the nodes. -/
theorem v25_apply (i : Fin 50000) (j : Fin 256) : val_main_v25 (F := Ideal) x3 (ix2 i j) = cur1 x3 j := by
  rw [val_main_v25_apply, val_main_v24_apply]
  exact congrArg x3 (funext fun a => Fin.ext (by match a with | ⟨0, _⟩ => rfl))

theorem v27_eq : val_main_v27 (F := Ideal) x0 x4
    = Host.dotGeneral dot_S50000x128_S128x256_S50000x256_1_0_0_1_n_n none x0 x4 := rfl

/-- The node's own row times the second weight matrix. -/
theorem v27_apply (i : Fin 50000) (j : Fin 256) :
    val_main_v27 (F := Ideal) x0 x4 (ix2 i j) = ∑ k : Fin 128, cur2 x0 i k * cur2 x4 k j := by
  show val_main_v27 (F := Ideal) x0 x4 (ix2 i j) = ∑ k : Fin 128, x0 (ix2 i k) * x4 (ix2 k j)
  rw [v27_eq, Cert.LibProduct.dotGeneral_apply _ rfl rfl rfl rfl rfl rfl]

/-- THE HIDDEN LAYER AT AN ENTRY. -/
theorem v29_apply (i : Fin 50000) (j : Fin 256) :
    val_main_v29 (F := Ideal) x0 x1 x2 x3 x4 (ix2 i j)
      = hidRef (val_main_v9 (F := Ideal) x1) (val_main_v12 (F := Ideal) x1) (cur2 x0) (cur2 x2) (cur1 x3) (cur2 x4) i j := by
  rw [val_main_v29_apply, val_main_v28_apply, val_main_v26_apply, v23_apply, v25_apply, v27_apply, relu0_apply,
    Ideal.maximumf_def, Ideal.addf_def, Ideal.addf_def, hidRef]

/-! ## The second layer -/

theorem v43_eq : val_main_v43 (F := Ideal) x1
    = Ideal.hostScatterAdd scatter_S50000_S800000x1_S800000_n_0_0_1 (val_main_v41 (F := Ideal)) (val_main_v12 (F := Ideal) x1) (val_main_v40 (F := Ideal)) := rfl

/-- The second layer's count of the edges arriving at a node. -/
theorem v43_apply (i : Fin 50000) : val_main_v43 (F := Ideal) x1 (ix1 i) = cnt (val_main_v12 (F := Ideal) x1) i := by
  rw [v43_eq, flatRec_eq, Cert.LibFlatScatter.flatScatter_apply, v41_apply, cnt]
  refine congrArg (fun s => (0 : EReal) + s) (Finset.sum_congr rfl fun e _ => ?_)
  rw [v40_apply]

/-- The second layer's in-degree clamped below at one. -/
theorem v45_apply (i : Fin 50000) : val_main_v45 (F := Ideal) x1 (ix1 i) = deg (val_main_v12 (F := Ideal) x1) i := by
  rw [val_main_v45_apply, v43_apply, v44_apply, Ideal.maximumf_def, deg]

/-- The clamped in-degree spread along a row of 256 entries. -/
theorem v47_apply (i : Fin 50000) (k : Fin 256) : val_main_v47 (F := Ideal) x1 (ix2 i k) = deg (val_main_v12 (F := Ideal) x1) i := by
  rw [val_main_v47_apply, val_main_v46_apply,
    show idx_main_v46 (idx_main_v47 (ix2 i k)) = ix1 i from funext fun a => Fin.ext (by match a with | ⟨0, _⟩ => rfl),
    v45_apply]

theorem gather256_eq : gather_S50000x256_S800000x1_S800000x256_1_0_n_n_0_1_1256
    = Cert.LibRows.rowDims (N := 50000) (E := 800000) (C := 256) Facts₀.gather_S50000x256_S800000x1_S800000x256_1_0_n_n_0_1_1256_wf := rfl

theorem v36_eq : val_main_v36 (F := Ideal) x0 x1 x2 x3 x4
    = Host.gather gather_S50000x256_S800000x1_S800000x256_1_0_n_n_0_1_1256 (val_main_v29 (F := Ideal) x0 x1 x2 x3 x4) (val_main_v9 (F := Ideal) x1) := rfl

/-- The second gather: the source node's hidden row. -/
theorem v36_apply (e : Fin 800000) (c : Fin 256) :
    val_main_v36 (F := Ideal) x0 x1 x2 x3 x4 (ix2 e c) = (hidRef (val_main_v9 (F := Ideal) x1) (val_main_v12 (F := Ideal) x1) (cur2 x0) (cur2 x2) (cur1 x3) (cur2 x4)) (srcRow (val_main_v9 (F := Ideal) x1) e) c := by
  rw [v36_eq, gather256_eq, Cert.LibRows.row_gather_apply _ (by norm_num)]
  exact v29_apply x0 x1 x2 x3 x4 (srcRow (val_main_v9 (F := Ideal) x1) e) c

theorem scatter256_eq : scatter_S50000x256_S800000x1_S800000x256_1_0_0_1
    = Cert.LibRows.scatDims (N := 50000) (E := 800000) (C := 256) Facts₀.scatter_S50000x256_S800000x1_S800000x256_1_0_0_1_wf := rfl

theorem v39_eq : val_main_v39 (F := Ideal) x0 x1 x2 x3 x4
    = Ideal.hostScatterAdd scatter_S50000x256_S800000x1_S800000x256_1_0_0_1 (val_main_v37 (F := Ideal)) (val_main_v12 (F := Ideal) x1) (val_main_v36 (F := Ideal) x0 x1 x2 x3 x4) := rfl

/-- The second accumulation: the sum of the source nodes' hidden rows over the arriving edges. -/
theorem v39_apply (i : Fin 50000) (k : Fin 256) :
    val_main_v39 (F := Ideal) x0 x1 x2 x3 x4 (ix2 i k) = agg (val_main_v9 (F := Ideal) x1) (val_main_v12 (F := Ideal) x1) (hidRef (val_main_v9 (F := Ideal) x1) (val_main_v12 (F := Ideal) x1) (cur2 x0) (cur2 x2) (cur1 x3) (cur2 x4)) i k := by
  rw [v39_eq, scatter256_eq, Cert.LibSegment.rowScatter_apply, v37_apply, agg]
  refine congrArg (fun s => (0 : EReal) + s) (Finset.sum_congr rfl fun e _ => ?_)
  rw [v36_apply]

/-- The mean of the neighbours' hidden rows. -/
theorem v48_apply (i : Fin 50000) (k : Fin 256) :
    val_main_v48 (F := Ideal) x0 x1 x2 x3 x4 (ix2 i k) = Ideal.div (agg (val_main_v9 (F := Ideal) x1) (val_main_v12 (F := Ideal) x1) (hidRef (val_main_v9 (F := Ideal) x1) (val_main_v12 (F := Ideal) x1) (cur2 x0) (cur2 x2) (cur1 x3) (cur2 x4)) i k) (deg (val_main_v12 (F := Ideal) x1) i) := by
  rw [val_main_v48_apply, v39_apply, v47_apply, Ideal.hostDivf_def]

theorem v49_eq : val_main_v49 (F := Ideal) x0 x1 x2 x3 x4 x5
    = Host.dotGeneral (φ₁ := .f32) dot_S50000x256_S256x64_S50000x64_1_0_0_1_n_n none (val_main_v48 (F := Ideal) x0 x1 x2 x3 x4) x5 := rfl

/-- The mean times the second layer's first weight matrix. -/
theorem v49_apply (i : Fin 50000) (j : Fin 64) :
    val_main_v49 (F := Ideal) x0 x1 x2 x3 x4 x5 (ix2 i j)
      = ∑ k : Fin 256, Ideal.div (agg (val_main_v9 (F := Ideal) x1) (val_main_v12 (F := Ideal) x1) (hidRef (val_main_v9 (F := Ideal) x1) (val_main_v12 (F := Ideal) x1) (cur2 x0) (cur2 x2) (cur1 x3) (cur2 x4)) i k) (deg (val_main_v12 (F := Ideal) x1) i) * cur2 x5 k j := by
  rw [v49_eq, Cert.LibProduct.dotGeneral_apply _ rfl rfl rfl rfl rfl rfl]
  refine Finset.sum_congr rfl fun k _ => ?_
  exact congrArg (fun t => t * x5 (ix2 k j)) (v48_apply x0 x1 x2 x3 x4 i k)

/-- The second bias spread along the nodes. -/
theorem v51_apply (i : Fin 50000) (j : Fin 64) : val_main_v51 (F := Ideal) x6 (ix2 i j) = cur1 x6 j := by
  rw [val_main_v51_apply, val_main_v50_apply]
  exact congrArg x6 (funext fun a => Fin.ext (by match a with | ⟨0, _⟩ => rfl))

theorem v53_eq : val_main_v53 (F := Ideal) x0 x1 x2 x3 x4 x7
    = Host.dotGeneral (φ₁ := .f32) dot_S50000x256_S256x64_S50000x64_1_0_0_1_n_n none (val_main_v29 (F := Ideal) x0 x1 x2 x3 x4) x7 := rfl

/-- The node's own hidden row times the second layer's second weight matrix. -/
theorem v53_apply (i : Fin 50000) (j : Fin 64) :
    val_main_v53 (F := Ideal) x0 x1 x2 x3 x4 x7 (ix2 i j) = ∑ k : Fin 256, (hidRef (val_main_v9 (F := Ideal) x1) (val_main_v12 (F := Ideal) x1) (cur2 x0) (cur2 x2) (cur1 x3) (cur2 x4)) i k * cur2 x7 k j := by
  rw [v53_eq, Cert.LibProduct.dotGeneral_apply _ rfl rfl rfl rfl rfl rfl]
  refine Finset.sum_congr rfl fun k _ => ?_
  exact congrArg (fun t => t * x7 (ix2 k j)) (v29_apply x0 x1 x2 x3 x4 i k)

/-- THE LATENT OUTPUT AT AN ENTRY. -/
theorem lat_apply (i : Fin 50000) (j : Fin 64) :
    val_main_v54 (F := Ideal) x0 x1 x2 x3 x4 x5 x6 x7 (ix2 i j)
      = latRef (val_main_v9 (F := Ideal) x1) (val_main_v12 (F := Ideal) x1) (hidRef (val_main_v9 (F := Ideal) x1) (val_main_v12 (F := Ideal) x1) (cur2 x0) (cur2 x2) (cur1 x3) (cur2 x4)) (cur2 x5) (cur1 x6) (cur2 x7) i j := by
  rw [val_main_v54_apply, val_main_v52_apply, v49_apply, v51_apply, v53_apply, Ideal.addf_def, Ideal.addf_def, latRef]

/-! ## The decoder -/

theorem v55_eq : val_main_v55 (F := Ideal) x0 x1 x2 x3 x4 x5 x6 x7 x8
    = Host.dotGeneral (φ₁ := .f32) dot_S50000x64_S64x128_S50000x128_1_0_0_1_n_n none (val_main_v54 (F := Ideal) x0 x1 x2 x3 x4 x5 x6 x7) x8 := rfl

/-- The latent row times the decoder's weight matrix. -/
theorem v55_apply (i : Fin 50000) (j : Fin 128) :
    val_main_v55 (F := Ideal) x0 x1 x2 x3 x4 x5 x6 x7 x8 (ix2 i j) = ∑ k : Fin 64, (latRef (val_main_v9 (F := Ideal) x1) (val_main_v12 (F := Ideal) x1) (hidRef (val_main_v9 (F := Ideal) x1) (val_main_v12 (F := Ideal) x1) (cur2 x0) (cur2 x2) (cur1 x3) (cur2 x4)) (cur2 x5) (cur1 x6) (cur2 x7)) i k * cur2 x8 k j := by
  rw [v55_eq, Cert.LibProduct.dotGeneral_apply _ rfl rfl rfl rfl rfl rfl]
  refine Finset.sum_congr rfl fun k _ => ?_
  exact congrArg (fun t => t * x8 (ix2 k j)) (lat_apply x0 x1 x2 x3 x4 x5 x6 x7 i k)

/-- The decoder's bias spread along the nodes. -/
theorem v57_apply (i : Fin 50000) (j : Fin 128) : val_main_v57 (F := Ideal) x9 (ix2 i j) = cur1 x9 j := by
  rw [val_main_v57_apply, val_main_v56_apply]
  exact congrArg x9 (funext fun a => Fin.ext (by match a with | ⟨0, _⟩ => rfl))

/-- THE DECODED OUTPUT AT AN ENTRY. -/
theorem dec_apply (i : Fin 50000) (j : Fin 128) :
    val_main_v58 (F := Ideal) x0 x1 x2 x3 x4 x5 x6 x7 x8 x9 (ix2 i j) = dec (latRef (val_main_v9 (F := Ideal) x1) (val_main_v12 (F := Ideal) x1) (hidRef (val_main_v9 (F := Ideal) x1) (val_main_v12 (F := Ideal) x1) (cur2 x0) (cur2 x2) (cur1 x3) (cur2 x4)) (cur2 x5) (cur1 x6) (cur2 x7)) (cur2 x8) (cur1 x9) i j := by
  rw [val_main_v58_apply, v55_apply, v57_apply, Ideal.addf_def, dec]

/-! ## The two results as whole arrays -/

section Whole
variable (m : (ℓ : Loc nD τ sig) → Buf (Elt Ideal) ℓ) (c : Dev nD)

/-- The reference's first result is the latent output of the dividing-first arrangement. -/
theorem out0_eq :
    Cert.ReferenceIdeal.Value.res_out0 (F := Ideal) m c
      = fun idx : S50000x64.Idx => (latRef (val_main_v9 (F := Ideal) (m ((c.tc : Thread nD τ).loc main_arg1))) (val_main_v12 (F := Ideal) (m ((c.tc : Thread nD τ).loc main_arg1))) (hidRef (val_main_v9 (F := Ideal) (m ((c.tc : Thread nD τ).loc main_arg1))) (val_main_v12 (F := Ideal) (m ((c.tc : Thread nD τ).loc main_arg1))) (cur2 (m ((c.tc : Thread nD τ).loc main_arg0))) (cur2 (m ((c.tc : Thread nD τ).loc main_arg2))) (cur1 (m ((c.tc : Thread nD τ).loc main_arg3))) (cur2 (m ((c.tc : Thread nD τ).loc main_arg4)))) (cur2 (m ((c.tc : Thread nD τ).loc main_arg5))) (cur1 (m ((c.tc : Thread nD τ).loc main_arg6))) (cur2 (m ((c.tc : Thread nD τ).loc main_arg7)))) (idx 0) (idx 1) := by
  funext idx
  refine (congrFun (val_main_v54_eq (F := Ideal) m c) idx).trans ?_
  refine (congrArg _ (eq_ix2 idx)).trans ?_
  exact lat_apply _ _ _ _ _ _ _ _ (idx 0) (idx 1)

/-- The reference's second result is the decoded output of the dividing-first arrangement. -/
theorem out1_eq :
    Cert.ReferenceIdeal.Value.res_out1 (F := Ideal) m c
      = fun idx : S50000x128.Idx => dec (latRef (val_main_v9 (F := Ideal) (m ((c.tc : Thread nD τ).loc main_arg1))) (val_main_v12 (F := Ideal) (m ((c.tc : Thread nD τ).loc main_arg1))) (hidRef (val_main_v9 (F := Ideal) (m ((c.tc : Thread nD τ).loc main_arg1))) (val_main_v12 (F := Ideal) (m ((c.tc : Thread nD τ).loc main_arg1))) (cur2 (m ((c.tc : Thread nD τ).loc main_arg0))) (cur2 (m ((c.tc : Thread nD τ).loc main_arg2))) (cur1 (m ((c.tc : Thread nD τ).loc main_arg3))) (cur2 (m ((c.tc : Thread nD τ).loc main_arg4)))) (cur2 (m ((c.tc : Thread nD τ).loc main_arg5))) (cur1 (m ((c.tc : Thread nD τ).loc main_arg6))) (cur2 (m ((c.tc : Thread nD τ).loc main_arg7)))) (cur2 (m ((c.tc : Thread nD τ).loc main_arg8))) (cur1 (m ((c.tc : Thread nD τ).loc main_arg9))) (idx 0) (idx 1) := by
  funext idx
  refine (congrFun (val_main_v58_eq (F := Ideal) m c) idx).trans ?_
  refine (congrArg _ (eq_ix2 idx)).trans ?_
  exact dec_apply _ _ _ _ _ _ _ _ _ _ (idx 0) (idx 1)
end Whole

end Cert.GraphAE.Ref

end
-- ==== Proof.lean ====
/-
  A graph autoencoder on 50000 nodes and 800000 edges, computed two ways, is one function on the extended reals
  whenever the float inputs are finite.

  Both programs average a node's in-neighbours (the sum, over the edges arriving at the node, of the source node's
  row, over the in-degree clamped below at one), map the average and the node's own row linearly, add a bias, apply a
  rectifier, repeat once without the rectifier, and decode linearly. The reference divides each aggregated row by
  the degree and multiplies it by the weight matrix; the other program multiplies by the reciprocal of the degree
  (the same number, the degree being at least one), adds the first bias after both products (addition is commutative
  and associative), and in the second layer multiplies the hidden rows by the weight matrix BEFORE aggregating them
  over the edges. That last step moves a matrix across a finite sum over edges and a division, which on the extended
  reals needs the summands to be real numbers: they are, because the inputs are finite and every operation before
  keeps real numbers real. The two edge-word arrays are built by the same operations in both programs.

  The run of the two-region program names each result at the last boundary of its frame; the regions' row blocks tile
  the arrays and a row's value depends on that row only, so each result is one function of what its region found;
  what the regions find is read off the whole-array operations between them. The reference's run is read operation
  by operation at an index.
-/
import proofs.«165848_j85315230367791_2_alg».proof.Defs
import proofs.«165848_j85315230367791_2_alg».proof.Proof.Gen.Kernel
import proofs.«165848_j85315230367791_2_alg».proof.Proof.Gen.Kernel.Skeleton
import proofs.«165848_j85315230367791_2_alg».proof.Proof.Gen.Kernel.Launch
import proofs.«165848_j85315230367791_2_alg».proof.Proof.Gen.Kernel.Points
import proofs.«165848_j85315230367791_2_alg».proof.Proof.Gen.Kernel.Frame
import proofs.«165848_j85315230367791_2_alg».proof.Proof.Gen.KernelIdeal
import proofs.«165848_j85315230367791_2_alg».proof.Proof.Gen.KernelIdeal.Skeleton
import proofs.«165848_j85315230367791_2_alg».proof.Proof.Gen.KernelIdeal.Launch
import proofs.«165848_j85315230367791_2_alg».proof.Proof.Gen.KernelIdeal.Points
import proofs.«165848_j85315230367791_2_alg».proof.Proof.Gen.KernelIdeal.Frame
import proofs.«165848_j85315230367791_2_alg».proof.Proof.Gen.ReferenceIdeal
import proofs.«165848_j85315230367791_2_alg».proof.Proof.Gen.Pre_finite_inputs
import proofs.«165848_j85315230367791_2_alg».proof.Proof.Gen.ReferenceIdeal.Run
import proofs.«165848_j85315230367791_2_alg».proof.Proof.Gen.ReferenceIdeal.Read
import proofs.«165848_j85315230367791_2_alg».proof.Proof.KRun
import proofs.«165848_j85315230367791_2_alg».proof.Proof.KVal
import proofs.«165848_j85315230367791_2_alg».proof.Proof.RefRead
import Idealize.ShloMosaic.Adequacy
import Idealize.ShloMosaic.Init

noncomputable section

namespace Cert.Proof

open Idealize.ShloMosaic Idealize.ShloMosaic.TcCoe Idealize.SL.Sem Cert.GraphAE

/-- The bit-exact program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the program and its reading over the extended reals. -/
theorem preserves : Cert.preserves_Kernel_KernelIdeal := trivial

/-- The source words are prepared by the same operations in both programs. -/
theorem src_same (e : IVec Cert.KernelIdeal.S2x800000 32) :
    Cert.GraphAE.Ker.srcK e = Cert.ReferenceIdeal.Read.val_main_v9 (F := Ideal) e := rfl

/-- And so are the destination words. -/
theorem dst_same (e : IVec Cert.KernelIdeal.S2x800000 32) :
    Cert.GraphAE.Ker.dstK e = Cert.ReferenceIdeal.Read.val_main_v12 (F := Ideal) e := rfl

/-- From finite inputs both programs end with the same two result arrays. -/
theorem algebraic : Cert.algebraic_KernelIdeal_ReferenceIdeal := by
  intro m ρ m' ρ' hpre hagree
  refine ⟨fun c => fun idx => Cert.GraphAE.Ker.zR m c (idx 0) (idx 1),
    fun c => fun idx => dec (Cert.GraphAE.Ker.zR m c)
      (cur2 (m ((c.tc : Thread Cert.KernelIdeal.nD Cert.KernelIdeal.τ).loc Cert.KernelIdeal.main_arg8) : Cert.KernelIdeal.S64x128.Idx → EReal))
      (cur1 (m ((c.tc : Thread Cert.KernelIdeal.nD Cert.KernelIdeal.τ).loc Cert.KernelIdeal.main_arg9) : Cert.KernelIdeal.S128.Idx → EReal))
      (idx 0) (idx 1), ?_, ?_⟩
  · exact (θ_run Cert.KernelIdeal.defs _ _).mono
      (fun r h c => ⟨(h c).1.trans (Cert.GraphAE.Ker.out0 m ρ c (hpre c)), (h c).2.1.trans (Cert.GraphAE.Ker.out1 m ρ c (hpre c)), (h c).2.2⟩)
      (Cert.GraphAE.Ker.run_outputs (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · refine (Cert.GraphAE.Ref.out0_eq m' c).trans ?_
      obtain ⟨e0, e1, e2, e3, e4, e5, e6, e7, e8, e9⟩ := hagree c
      rw [e0, e1, e2, e3, e4, e5, e6, e7]
      rfl
    · refine (Cert.GraphAE.Ref.out1_eq m' c).trans ?_
      obtain ⟨e0, e1, e2, e3, e4, e5, e6, e7, e8, e9⟩ := hagree c
      rw [e0, e1, e2, e3, e4, e5, e6, e7, e8, e9]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
